-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v99_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S3x64x64 : Shape := ⟨3, ![3, 64, 64]⟩
abbrev S3x64 : Shape := ⟨2, ![3, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S3x64 .f32) (main_arg10 : FVec F S64x2 .f32) (main_arg11 : FVec F S2 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x2 .f32 := Host.absf main_arg10
  let main_cst_14 : FVec F S_ .f32 := constant S_ .f32 0x7F800000#32
  let main_v40 : FVec F S64x2 .f32 := broadcastInDim S64x2 ![] bcast_S_S64x2 main_cst_14
  let main_v41 : IVec S64x2 1 := cmpf .olt main_v39 main_v40
  let main_c_15 : IVec S_ 1 := constantI S_ 1 1#1
  let main_v42 : IVec S_ 1 := (fun x v => Host.reduce IntOp.andi x v reducesTo_S64x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S3x64 .f32) (main_arg7 : FVec F S3x64 .f32) (main_arg8 : FVec F S3x64 .f32) (main_arg9 : FVec F S3x64 .f32) (main_arg10 : FVec F S64x2 .f32) (main_arg11 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S3x64x64 .f32) (main_arg4 : FVec F S3x64x64 .f32) (main_arg5 : FVec F S3x64 .f32) (main_arg6 : FVec F S3x64 .f32) (main_arg7 : FVec F S3x64 .f32) (main_arg8 : FVec F S3x64 .f32) (main_arg9 : FVec F S3x64 .f32) (main_arg10 : FVec F S64x2 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S3x64x64 : Shape := ⟨3, ![3, 64, 64]⟩
abbrev S3x64 : Shape := ⟨2, ![3, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000x1 : Shape := ⟨2, ![5000, 1]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 126
  | .vmem => 49
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S3x64, .f32⟩
  | .hbm, ⟨7, _⟩ => ⟨S3x64, .f32⟩
  | .hbm, ⟨8, _⟩ => ⟨S3x64, .f32⟩
  | .hbm, ⟨9, _⟩ => ⟨S3x64, .f32⟩
  | .hbm, ⟨10, _⟩ => ⟨S64x2, .f32⟩
  | .hbm, ⟨11, _⟩ => ⟨S2, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S1x64x64, .f32⟩
  | .hbm, ⟨39, _⟩ => ⟨S64x64, .f32⟩
  | .hbm, ⟨40, _⟩ => ⟨S1x64x64, .f32⟩
  | .hbm, ⟨41, _⟩ => ⟨S64x64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S1x64x64, .f32⟩
  | .hbm, ⟨72, _⟩ => ⟨S64x64, .f32⟩
  | .hbm, ⟨73, _⟩ => ⟨S1x64x64, .f32⟩
  | .hbm, ⟨74, _⟩ => ⟨S64x64, .f32⟩
  | .hbm, ⟨75, _⟩ => ⟨S1x64, .f32⟩
  | .hbm, ⟨76, _⟩ => ⟨S64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S64, .f32⟩
  | .hbm, ⟨83, _⟩ => ⟨S1x64, .f32⟩
  | .hbm, ⟨84, _⟩ => ⟨S64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x64, .f32⟩
  | .hbm, ⟨89, _⟩ => ⟨S1x64, .f32⟩
  | .hbm, ⟨90, _⟩ => ⟨S100000x64, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S1x64x64, .f32⟩
  | .hbm, ⟨105, _⟩ => ⟨S64x64, .f32⟩
  | .hbm, ⟨106, _⟩ => ⟨S1x64x64, .f32⟩
  | .hbm, ⟨107, _⟩ => ⟨S64x64, .f32⟩
  | .hbm, ⟨108, _⟩ => ⟨S1x64, .f32⟩
  | .hbm, ⟨109, _⟩ => ⟨S64, .f32⟩
  | .hbm, ⟨110, _⟩ => ⟨S1x64, .f32⟩
  | .hbm, ⟨111, _⟩ => ⟨S64, .f32⟩
  | .hbm, ⟨112, _⟩ => ⟨S1x64, .f32⟩
  | .hbm, ⟨113, _⟩ => ⟨S64, .f32⟩
  | .hbm, ⟨114, _⟩ => ⟨S1x64, .f32⟩
  | .hbm, ⟨115, _⟩ => ⟨S64, .f32⟩
  | .hbm, ⟨116, _⟩ => ⟨S1x64, .f32⟩
  | .hbm, ⟨117, _⟩ => ⟨S64, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S1x64, .f32⟩
  | .hbm, ⟨122, _⟩ => ⟨S1x64, .f32⟩
  | .hbm, ⟨123, _⟩ => ⟨S1x2, .f32⟩
  | .hbm, ⟨124, _⟩ => ⟨S100000x64, .f32⟩
  | .hbm, ⟨125, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x1, .f32⟩
  | .local _ .vmem, ⟨35, _⟩ => ⟨S5000x1, .f32⟩
  | .local _ .vmem, ⟨36, _⟩ => ⟨S64x64, .f32⟩
  | .local _ .vmem, ⟨37, _⟩ => ⟨S64x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S64x2, .f32⟩
  | .local _ .vmem, ⟨44, _⟩ => ⟨S1x2, .f32⟩
  | .local _ .vmem, ⟨45, _⟩ => ⟨S5000x64, .f32⟩
  | .local _ .vmem, ⟨46, _⟩ => ⟨S5000x64, .f32⟩
  | .local _ .vmem, ⟨47, _⟩ => ⟨S5000x2, .f32⟩
  | .local _ .vmem, ⟨48, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_8 : Ref sig .tc := ⟨.hbm, 91, rfl⟩
abbrev main_v69 : Ref sig .tc := ⟨.hbm, 92, rfl⟩
abbrev main_v70 : Ref sig .tc := ⟨.hbm, 93, rfl⟩
abbrev main_c_9 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99_0 : Ref sig .tc := ⟨.hbm, 124, rfl⟩
abbrev main_v99_1 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg12_0 : Ref sig .tc := ⟨.vmem, 45, rfl⟩
abbrev cc2_stg12_1 : Ref sig .tc := ⟨.vmem, 46, rfl⟩
abbrev cc2_stg13_0 : Ref sig .tc := ⟨.vmem, 47, rfl⟩
abbrev cc2_stg13_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem12_0 : DmaSem sig := 45
abbrev cc2_sem12_1 : DmaSem sig := 46
abbrev cc2_sem13_0 : DmaSem sig := 47
abbrev cc2_sem13_1 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x2 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S5000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S5000x2 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  bitsLt_bf16_f32 : FTy.bits .bf16 < FTy.bits .f32
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x2.size a ≤ S64x2.size a
  hwx2_10 : ∀ i : grid2.Coords, EltTy.bits .f32 = 32 ∨ (Rect.block (s := S64x2) S64x2.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x2.size a ≤ S1x2.size a
  hwx2_11 : ∀ i : grid2.Coords, EltTy.bits .f32 = 32 ∨ (Rect.block (s := S1x2) S1x2.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x64.size a ≤ S100000x64.size a
  hwx2_12 : ∀ i : grid2.Coords, EltTy.bits .f32 = 32 ∨ (Rect.block (s := S100000x64) S5000x64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S5000x2.size a ≤ S100000x2.size a
  hwx2_13 : ∀ i : grid2.Coords, EltTy.bits .f32 = 32 ∨ (Rect.block (s := S100000x2) S5000x2.size (cc2_transform_13 i) (hinb2_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v66) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v67) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v68) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v80) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v93) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v94) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v95) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v96) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v97) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg10) S64x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v98) S1x2.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v99_0) S5000x64.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v99_1) S5000x2.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S3x64x64 : Shape := ⟨3, ![3, 64, 64]⟩
abbrev S3x64 : Shape := ⟨2, ![3, 64]⟩
abbrev S64x2 : Shape := ⟨2, ![64, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S100000x2 : Shape := ⟨2, ![100000, 2]⟩
abbrev S1x2 : Shape := ⟨2, ![1, 2]⟩

abbrev nBuf : Space → Nat
  | .hbm => 182
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S3x64x64, .f32⟩
  | 4 => ⟨S3x64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S64x2, .f32⟩
  | 11 => ⟨S2, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x64, .f32⟩
  | 31 => ⟨S_, .f32⟩
  | 32 => ⟨S100000x64, .f32⟩
  | 33 => ⟨S1600000x1, .i32⟩
  | 34 => ⟨S100000x64, .f32⟩
  | 35 => ⟨S100000x64, .f32⟩
  | 36 => ⟨S100000x64, .f32⟩
  | 37 => ⟨S1x64x64, .f32⟩
  | 38 => ⟨S64x64, .f32⟩
  | 39 => ⟨S100000x64, .f32⟩
  | 40 => ⟨S1x64x64, .f32⟩
  | 41 => ⟨S64x64, .f32⟩
  | 42 => ⟨S100000x64, .f32⟩
  | 43 => ⟨S100000x64, .f32⟩
  | 44 => ⟨S1x64, .f32⟩
  | 45 => ⟨S64, .f32⟩
  | 46 => ⟨S1x64, .f32⟩
  | 47 => ⟨S100000x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S64, .f32⟩
  | 56 => ⟨S1x64, .f32⟩
  | 57 => ⟨S64, .f32⟩
  | 58 => ⟨S_, .f32⟩
  | 59 => ⟨S64, .f32⟩
  | 60 => ⟨S64, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S_, .f32⟩
  | 84 => ⟨S100000x64, .f32⟩
  | 85 => ⟨S1600000x1, .i32⟩
  | 86 => ⟨S100000x64, .f32⟩
  | 87 => ⟨S100000x64, .f32⟩
  | 88 => ⟨S100000x64, .f32⟩
  | 89 => ⟨S1x64x64, .f32⟩
  | 90 => ⟨S64x64, .f32⟩
  | 91 => ⟨S100000x64, .f32⟩
  | 92 => ⟨S1x64x64, .f32⟩
  | 93 => ⟨S64x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S1x64, .f32⟩
  | 107 => ⟨S64, .f32⟩
  | 108 => ⟨S1x64, .f32⟩
  | 109 => ⟨S64, .f32⟩
  | 110 => ⟨S_, .f32⟩
  | 111 => ⟨S64, .f32⟩
  | 112 => ⟨S64, .f32⟩
  | 113 => ⟨S64, .f32⟩
  | 114 => ⟨S64, .f32⟩
  | 115 => ⟨S1x64, .f32⟩
  | 116 => ⟨S100000x64, .f32⟩
  | 117 => ⟨S100000x64, .f32⟩
  | 118 => ⟨S1x64, .f32⟩
  | 119 => ⟨S64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S_, .i32⟩
  | 127 => ⟨S1600000, .i32⟩
  | _ => ⟨S100000x64, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S_, .f32⟩
  | 8 => ⟨S100000x64, .f32⟩
  | 9 => ⟨S1600000x1, .i32⟩
  | 10 => ⟨S100000x64, .f32⟩
  | 11 => ⟨S100000x64, .f32⟩
  | 12 => ⟨S100000x64, .f32⟩
  | 13 => ⟨S1x64x64, .f32⟩
  | 14 => ⟨S64x64, .f32⟩
  | 15 => ⟨S100000x64, .f32⟩
  | 16 => ⟨S1x64x64, .f32⟩
  | 17 => ⟨S64x64, .f32⟩
  | 18 => ⟨S100000x64, .f32⟩
  | 19 => ⟨S100000x64, .f32⟩
  | 20 => ⟨S1x64, .f32⟩
  | 21 => ⟨S64, .f32⟩
  | 22 => ⟨S1x64, .f32⟩
  | 23 => ⟨S100000x64, .f32⟩
  | 24 => ⟨S100000x64, .f32⟩
  | 25 => ⟨S1x64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S64, .f32⟩
  | 32 => ⟨S1x64, .f32⟩
  | 33 => ⟨S64, .f32⟩
  | 34 => ⟨S_, .f32⟩
  | 35 => ⟨S64, .f32⟩
  | 36 => ⟨S64, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S100000x2, .f32⟩
  | 51 => ⟨S1x2, .f32⟩
  | 52 => ⟨S100000x2, .f32⟩
  | 53 => ⟨S100000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩
abbrev main_c_5 : Ref sig .tc := ⟨.hbm, 74, rfl⟩
abbrev main_v53 : Ref sig .tc := ⟨.hbm, 75, rfl⟩
abbrev main_v54 : Ref sig .tc := ⟨.hbm, 76, rfl⟩
abbrev main_c_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_8 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_call1_cst : Ref sig .tc := ⟨.hbm, 123, rfl⟩
abbrev main_call1_v0 : Ref sig .tc := ⟨.hbm, 124, rfl⟩
abbrev main_v98 : Ref sig .tc := ⟨.hbm, 125, rfl⟩
abbrev main_c_9 : Ref sig .tc := ⟨.hbm, 126, rfl⟩
abbrev main_v99 : Ref sig .tc := ⟨.hbm, 127, rfl⟩
abbrev main_v100 : Ref sig .tc := ⟨.hbm, 128, rfl⟩
abbrev main_c_10 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_11 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_12 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_call2_cst : Ref sig .tc := ⟨.hbm, 175, rfl⟩
abbrev main_call2_v0 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The idealized kernel's run with its result named.

  Every weakly fair execution of the program terminates without a fault; the result array ends at what the last
  layer's classifier window leaves (the fold of its twenty write-backs), and the argument arrays end as launched:
  the run of the program's six segments (three stretches of host operations, three kernel regions) read at the
  result's buffer as well as at the arguments'.
-/
import proofs.«154846_j13511967113638_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last region's classifier window after its write-backs, the arguments unchanged. -/
theorem run_named : θ_run defs (onTc (τ := τ) (main (F := F))) ⟨m, fun _ => 0, ρ⟩ (fun r => ∀ c : Dev nD,
      r.2.mem ((c.tc : Thread nD τ).loc main_v99_1) = (dat2 (V5 m ρ) c).arrAt 13 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v99_1 (by decide))).trans (W6_arr m ρ c 13),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KV

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KBlock.lean ====
/-
  One block of a layer, entry by entry.

  A grid point of a layer kernel loads 5000 rows of the features `x0` and of the neighbour sum `x1`, the rows' reciprocal
  degrees `x2` (one column), the two weight matrices `x3`, `x4` and five one-row vectors (bias `x5`, scale `x6`, shift
  `x7`, running mean `x8`, running variance `x9`), and stores
  `max (((x0·x3 + (x1 ⊙ x2)·x4 + x5) - x8) ⊙ (x6 ⊙ rsqrt (x9 + ε)) + x7, 0)`: row `p`, column `q` of it is the layer's
  formula over the block's rows. The last layer also stores that block times the classifier matrix plus its bias row.
-/
import proofs.«154846_j13511967113638_2_alg».proof.KernelIdeal
import proofs.«154846_j13511967113638_2_alg».proof.Proof.Gen.KernelIdeal
import proofs.«154846_j13511967113638_2_alg».proof.Proof.LibMatmulAt
import proofs.«154846_j13511967113638_2_alg».proof.Proof.LibColBroadcast
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.KV

open Cert.KernelIdeal Idealize.ShloMosaic Idealize.ShloMosaic.ValueIdx
open Facts₀ Facts

/-! ## Where the two contractions read their operands -/

theorem dotW_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotW_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem dotW_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem dotW_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem dotC_l0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem dotC_l1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem dotC_r0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem dotC_r1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- A [5000, 64] block times a [64, 64] matrix, at row `p`, column `q`. -/
theorem mmW_apply (a : FVec Ideal S5000x64 .f32) (w : FVec Ideal S64x64 .f32) (p : Fin 5000) (q : Fin 64) :
    matmul dot_S5000x64_S64x64_S5000x64_1_0_0_1_n_n none (truncf .bf16 a bitsLt_bf16_f32)
      (truncf .bf16 (shapeCast S64x64 w shapeCasts_S64x64_S64x64) bitsLt_bf16_f32) (constant S5000x64 .f32 0x00000000#32) (ix2 p q)
      = ∑ k : Fin 64, a (ix2 p k) * w (ix2 k q) := by
  refine (MatmulAt.matmul_zero_ix2 dot_S5000x64_S64x64_S5000x64_1_0_0_1_n_n rfl rfl dotW_l0 dotW_l1 dotW_r0 dotW_r1 none _ _ p q).trans ?_
  refine Finset.sum_congr rfl fun k _ => ?_
  rw [truncf_apply, truncf_apply, shapeCast_self]

/-- A [5000, 64] block times the [64, 2] classifier matrix, at row `p`, class `r`. -/
theorem mmC_apply (a : FVec Ideal S5000x64 .f32) (w : FVec Ideal S64x2 .f32) (p : Fin 5000) (r : Fin 2) :
    matmul dot_S5000x64_S64x2_S5000x2_1_0_0_1_n_n none (truncf .bf16 a bitsLt_bf16_f32)
      (truncf .bf16 w bitsLt_bf16_f32) (constant S5000x2 .f32 0x00000000#32) (ix2 p r)
      = ∑ k : Fin 64, a (ix2 p k) * w (ix2 k r) := by
  refine (MatmulAt.matmul_zero_ix2 dot_S5000x64_S64x2_S5000x2_1_0_0_1_n_n rfl rfl dotC_l0 dotC_l1 dotC_r0 dotC_r1 none _ _ p r).trans ?_
  refine Finset.sum_congr rfl fun k _ => ?_
  rw [truncf_apply, truncf_apply]

/-- A one-row vector spread over the block's rows, at `(p, q)`. -/
theorem row_apply (v : FVec Ideal S1x64 .f32) (p : Fin 5000) (q : Fin 64) :
    broadcastTo S5000x64 v broadcasts_S1x64_S5000x64 (ix2 p q) = v (ix2 (0 : Fin 1) q) :=
  broadcastTo_1b_ab_apply v broadcasts_S1x64_S5000x64 p q

/-! ## The block a layer's grid point stores -/

/-- The stored block as one expression of the loaded blocks. -/
def blkFn (x0 x1 : FVec Ideal S5000x64 .f32) (x2 : FVec Ideal S5000x1 .f32) (x3 x4 : FVec Ideal S64x64 .f32)
    (x5 x6 x7 x8 x9 : FVec Ideal S1x64 .f32) : FVec Ideal S5000x64 .f32 :=
  maximumf
    (addf
      (mulf
        (subf
          (addf
            (addf
              (matmul dot_S5000x64_S64x64_S5000x64_1_0_0_1_n_n none (truncf .bf16 x0 bitsLt_bf16_f32)
                (truncf .bf16 (shapeCast S64x64 x3 shapeCasts_S64x64_S64x64) bitsLt_bf16_f32) (constant S5000x64 .f32 0x00000000#32))
              (matmul dot_S5000x64_S64x64_S5000x64_1_0_0_1_n_n none
                (truncf .bf16 (mulf (shapeCast S5000x64 x1 shapeCasts_S5000x64_S5000x64)
                  (broadcastTo S5000x64 (shapeCast S5000x1 x2 shapeCasts_S5000x1_S5000x1) broadcasts_S5000x1_S5000x64)) bitsLt_bf16_f32)
                (truncf .bf16 (shapeCast S64x64 x4 shapeCasts_S64x64_S64x64) bitsLt_bf16_f32) (constant S5000x64 .f32 0x00000000#32)))
            (broadcastTo S5000x64 (shapeCast S1x64 x5 shapeCasts_S1x64_S1x64) broadcasts_S1x64_S5000x64))
          (broadcastTo S5000x64 (shapeCast S1x64 x8 shapeCasts_S1x64_S1x64) broadcasts_S1x64_S5000x64))
        (broadcastTo S5000x64
          (mulf (shapeCast S1x64 x6 shapeCasts_S1x64_S1x64)
            (rsqrt (addf (shapeCast S1x64 x9 shapeCasts_S1x64_S1x64) (broadcast S1x64 (Scalar.ofBits .f32 0x3727C5AC#32)))))
          broadcasts_S1x64_S5000x64))
      (broadcastTo S5000x64 (shapeCast S1x64 x7 shapeCasts_S1x64_S1x64) broadcasts_S1x64_S5000x64))
    (broadcast S5000x64 (Scalar.ofBits .f32 0x00000000#32))

/-- Row `p`, column `q` of the stored block. -/
theorem blkFn_apply (x0 x1 : FVec Ideal S5000x64 .f32) (x2 : FVec Ideal S5000x1 .f32) (x3 x4 : FVec Ideal S64x64 .f32)
    (x5 x6 x7 x8 x9 : FVec Ideal S1x64 .f32) (p : Fin 5000) (q : Fin 64) :
    blkFn x0 x1 x2 x3 x4 x5 x6 x7 x8 x9 (ix2 p q)
      = max (((((∑ k : Fin 64, x0 (ix2 p k) * x3 (ix2 k q)) + ∑ k : Fin 64, (x1 (ix2 p k) * x2 (ix2 p (0 : Fin 1))) * x4 (ix2 k q))
              + x5 (ix2 (0 : Fin 1) q)) - x8 (ix2 (0 : Fin 1) q))
            * (x6 (ix2 (0 : Fin 1) q) * Ideal.rsqrt (x9 (ix2 (0 : Fin 1) q) + Ideal.ofBits .f32 0x3727C5AC#32)) + x7 (ix2 (0 : Fin 1) q))
          (Ideal.ofBits .f32 0x00000000#32) := by
  unfold blkFn
  rw [maximumf_apply, addf_apply, mulf_apply, subf_apply, addf_apply, addf_apply, mmW_apply, mmW_apply,
    row_apply, row_apply, row_apply, row_apply]
  simp only [shapeCast_self, mulf_apply, addf_apply, LibColBroadcast.broadcastTo_a1_ab_apply, rsqrt, broadcast_apply,
    Ideal.rsqrt_def, Ideal.ofBits_def]

/-- The classifier block the last layer's grid point stores, from the layer block `y`. -/
def logitFn (y : FVec Ideal S5000x64 .f32) (x10 : FVec Ideal S64x2 .f32) (x11 : FVec Ideal S1x2 .f32) : FVec Ideal S5000x2 .f32 :=
  addf (matmul dot_S5000x64_S64x2_S5000x2_1_0_0_1_n_n none (truncf .bf16 y bitsLt_bf16_f32)
      (truncf .bf16 x10 bitsLt_bf16_f32) (constant S5000x2 .f32 0x00000000#32))
    (broadcastTo S5000x2 (shapeCast S1x2 x11 shapeCasts_S1x2_S1x2) broadcasts_S1x2_S5000x2)

/-- Row `p`, class `r` of the classifier block. -/
theorem logitFn_apply (y : FVec Ideal S5000x64 .f32) (x10 : FVec Ideal S64x2 .f32) (x11 : FVec Ideal S1x2 .f32) (p : Fin 5000) (r : Fin 2) :
    logitFn y x10 x11 (ix2 p r) = (∑ k : Fin 64, y (ix2 p k) * x10 (ix2 k r)) + x11 (ix2 (0 : Fin 1) r) := by
  unfold logitFn
  rw [addf_apply, shapeCast_self, mmC_apply]
  exact congrArg _ (broadcastTo_1b_ab_apply x11 broadcasts_S1x2_S5000x2 p r)

end Cert.KernelIdeal.KV

end
-- ==== Proof.Spec.lean ====
/-
  The mathematics both programs compute, entry by entry, on the extended reals.

  A graph layer takes the node features `h` ([100000, 64]), the neighbour term `Hn` ([100000, 64]: the sum of the
  features of a node's in-neighbours, already normalised by the clamped in-degree), two [64, 64] weight matrices and
  five [64] vectors (bias, scale, shift, running mean, running variance) and returns, at node `p` and feature `q`,

      max ( ((Σ_k h(p,k)·Ws(k,q) + Σ_k Hn(p,k)·Wn(k,q)) + b(q) - mu(q)) · (g(q) · rsqrt(va(q) + ε)) + be(q), 0 ).

  The classifier head is `Σ_k h(p,k)·Wc(k,r) + bc(r)`. The two programs differ in one place only: one multiplies the
  neighbour sum by the reciprocal of the clamped in-degree, the other divides by it; for a degree that is a real number
  other than zero the two are one extended real (`mul_recip_eq_div`), and a clamped count of edges is such a real
  (`clamped_count_real`).
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- One layer at node `p`, feature `q`. -/
def layerAt (h Hn : (⟨2, ![100000, 64]⟩ : Shape).Idx → EReal) (Ws Wn : (⟨2, ![64, 64]⟩ : Shape).Idx → EReal)
    (b g be mu va : (⟨1, ![64]⟩ : Shape).Idx → EReal) (p : Fin 100000) (q : Fin 64) : EReal :=
  max (((((∑ k : Fin 64, h (ix2 p k) * Ws (ix2 k q)) + ∑ k : Fin 64, Hn (ix2 p k) * Wn (ix2 k q)) + b (ix1 q)) - mu (ix1 q))
        * (g (ix1 q) * Ideal.rsqrt (va (ix1 q) + Ideal.ofBits .f32 0x3727C5AC#32)) + be (ix1 q))
    (Ideal.ofBits .f32 0x00000000#32)

/-- One layer as an array. -/
def layer (h Hn : (⟨2, ![100000, 64]⟩ : Shape).Idx → EReal) (Ws Wn : (⟨2, ![64, 64]⟩ : Shape).Idx → EReal)
    (b g be mu va : (⟨1, ![64]⟩ : Shape).Idx → EReal) : (⟨2, ![100000, 64]⟩ : Shape).Idx → EReal :=
  fun i => layerAt h Hn Ws Wn b g be mu va (i 0) (i 1)

theorem layer_ix2 (h Hn : (⟨2, ![100000, 64]⟩ : Shape).Idx → EReal) (Ws Wn : (⟨2, ![64, 64]⟩ : Shape).Idx → EReal)
    (b g be mu va : (⟨1, ![64]⟩ : Shape).Idx → EReal) (p : Fin 100000) (q : Fin 64) :
    layer h Hn Ws Wn b g be mu va (ix2 p q) = layerAt h Hn Ws Wn b g be mu va p q := rfl

/-- The classifier head at node `p`, class `r`. -/
def headAt (h : (⟨2, ![100000, 64]⟩ : Shape).Idx → EReal) (Wc : (⟨2, ![64, 2]⟩ : Shape).Idx → EReal)
    (bc : (⟨1, ![2]⟩ : Shape).Idx → EReal) (p : Fin 100000) (r : Fin 2) : EReal :=
  (∑ k : Fin 64, h (ix2 p k) * Wc (ix2 k r)) + bc (ix1 r)

/-- The classifier head as an array. -/
def head (h : (⟨2, ![100000, 64]⟩ : Shape).Idx → EReal) (Wc : (⟨2, ![64, 2]⟩ : Shape).Idx → EReal)
    (bc : (⟨1, ![2]⟩ : Shape).Idx → EReal) : (⟨2, ![100000, 2]⟩ : Shape).Idx → EReal :=
  fun i => headAt h Wc bc (i 0) (i 1)

theorem head_ix2 (h : (⟨2, ![100000, 64]⟩ : Shape).Idx → EReal) (Wc : (⟨2, ![64, 2]⟩ : Shape).Idx → EReal)
    (bc : (⟨1, ![2]⟩ : Shape).Idx → EReal) (p : Fin 100000) (r : Fin 2) :
    head h Wc bc (ix2 p r) = headAt h Wc bc p r := rfl

/-- A neighbour sum divided by a degree, as an array: entry `(p, k)` of `S` over entry `p` of `d`. -/
def meanOf (S : (⟨2, ![100000, 64]⟩ : Shape).Idx → EReal) (d : (⟨1, ![100000]⟩ : Shape).Idx → EReal) :
    (⟨2, ![100000, 64]⟩ : Shape).Idx → EReal :=
  fun i => Ideal.div (S i) (d (ix1 (i 0)))

/-- Multiplying by the reciprocal of a real other than zero is dividing by it, at the infinities too. -/
theorem mul_recip_eq_div (x : EReal) {r : ℝ} (hr : r ≠ 0) :
    x * Ideal.div (Ideal.ofBits .f32 0x3F800000#32) (r : EReal) = Ideal.div x (r : EReal) := by
  rw [Ideal.ofBits_one_f32, Ideal.div_coe hr, Ideal.div_coe hr, one_mul]

/-- A count of ones started from zero and clamped below by one is a real number other than zero. -/
theorem clamped_count_real {ι : Type} (s : Finset ι) :
    ∃ r : ℝ, r ≠ 0 ∧ max (Ideal.ofBits .f32 0x00000000#32 + ∑ _j ∈ s, Ideal.ofBits .f32 0x3F800000#32)
      (Ideal.ofBits .f32 0x3F800000#32) = (r : EReal) := by
  refine ⟨max (s.card : ℝ) 1, ne_of_gt (lt_of_lt_of_le one_pos (le_max_right _ _)), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

end Cert.Sage

end
-- ==== Proof.KPoint.lean ====
/-
  From a block to the array: a grid point's rows of a layer.

  Grid point `T` of a layer kernel works on rows `5000·T … 5000·T + 4999` of the node arrays and on the whole of the
  small ones. If its loaded row blocks are those rows of the arrays `h`, `S` and `inv`, then row `p` of the block it
  stores is row `5000·T + p` of the layer of the whole arrays, the neighbour term being `S ⊙ inv` (the neighbour sum
  times the reciprocal degree, one column spread over the features); likewise for the classifier block.
-/
import proofs.«154846_j13511967113638_2_alg».proof.Proof.KBlock
import proofs.«154846_j13511967113638_2_alg».proof.Proof.Spec

noncomputable section

open scoped BigOperators

namespace Cert.KernelIdeal.KV

open Cert.KernelIdeal Idealize.ShloMosaic Idealize.ShloMosaic.ValueIdx Cert.Sage

theorem hz2 : (![0, 0] : Fin 2 → Nat) = fun _ => 0 := funext fun a => by fin_cases a <;> rfl

/-- A one-row [1, 64] array as a [64] vector. -/
def rowOf (X : S1x64.Idx → EReal) : (⟨1, ![64]⟩ : Shape).Idx → EReal := fun j => X (ix2 (0 : Fin 1) (j 0))

/-- A one-row [1, 2] array as a [2] vector. -/
def rowOf2 (X : S1x2.Idx → EReal) : (⟨1, ![2]⟩ : Shape).Idx → EReal := fun j => X (ix2 (0 : Fin 1) (j 0))

/-- The neighbour sum times the reciprocal-degree column. -/
def timesInv (S : S100000x64.Idx → EReal) (inv : S100000x1.Idx → EReal) : S100000x64.Idx → EReal :=
  fun i => S i * inv (ix2 (i 0) (0 : Fin 1))

/-- The layer as a region computes it from the arrays it finds. -/
def regionLayer (h S : S100000x64.Idx → EReal) (inv : S100000x1.Idx → EReal) (Ws Wn : S64x64.Idx → EReal)
    (b g be mu va : S1x64.Idx → EReal) : S100000x64.Idx → EReal :=
  layer h (timesInv S inv) Ws Wn (rowOf b) (rowOf g) (rowOf be) (rowOf mu) (rowOf va)

/-- Row `p` of grid point `T`'s stored block is row `5000·T + p` of the layer. -/
theorem point_eq (h S : S100000x64.Idx → EReal) (inv : S100000x1.Idx → EReal) (Ws Wn : S64x64.Idx → EReal)
    (b g be mu va : S1x64.Idx → EReal) (x0 x1 : FVec Ideal S5000x64 .f32) (x2 : FVec Ideal S5000x1 .f32)
    (T : ℕ) (p : Fin 5000) (q : Fin 64) (hT : T * 5000 + p.val < 100000)
    (e0 : ∀ k : Fin 64, x0 (ix2 p k) = h (ix2 ⟨T * 5000 + p.val, hT⟩ k))
    (e1 : ∀ k : Fin 64, x1 (ix2 p k) = S (ix2 ⟨T * 5000 + p.val, hT⟩ k))
    (e2 : x2 (ix2 p (0 : Fin 1)) = inv (ix2 ⟨T * 5000 + p.val, hT⟩ (0 : Fin 1))) :
    blkFn x0 x1 x2 Ws Wn b g be mu va (ix2 p q)
      = regionLayer h S inv Ws Wn b g be mu va (ix2 ⟨T * 5000 + p.val, hT⟩ q) := by
  rw [blkFn_apply]
  unfold regionLayer
  rw [layer_ix2]
  unfold layerAt timesInv rowOf
  simp only [e0, e1, e2]

/-- Row `p` of grid point `T`'s classifier block is row `5000·T + p` of the head of the layer `H`. -/
theorem point_head_eq (H : S100000x64.Idx → EReal) (Wc : S64x2.Idx → EReal) (bc : S1x2.Idx → EReal)
    (y : FVec Ideal S5000x64 .f32) (T : ℕ) (p : Fin 5000) (r : Fin 2) (hT : T * 5000 + p.val < 100000)
    (e : ∀ k : Fin 64, y (ix2 p k) = H (ix2 ⟨T * 5000 + p.val, hT⟩ k)) :
    logitFn y Wc bc (ix2 p r) = head H Wc (rowOf2 bc) (ix2 ⟨T * 5000 + p.val, hT⟩ r) := by
  rw [logitFn_apply, head_ix2]
  unfold headAt rowOf2
  simp only [e]

end Cert.KernelIdeal.KV

end
-- ==== Proof.KRegion2.lean ====
/-
  The last layer's kernel: the classifier array it leaves.

  As in the other layers, grid point `t` of 20 works on rows `5000·t … 5000·t + 4999`; besides the layer's block it
  stores that block times the [64, 2] classifier matrix plus the classifier's bias row, into the same rows of the
  [100000, 2] result. The 20 row blocks tile the result, so it ends as the classifier head of the layer of the arrays
  the region finds.
-/
import proofs.«154846_j13511967113638_2_alg».proof.Proof.Gen.KernelIdeal.Frame
import proofs.«154846_j13511967113638_2_alg».proof.Proof.KPoint

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Idealize.SL.Sem Cert.Sage
open Idealize.ShloMosaic.Pipeline (Dat Cfg Window)

variable (V : (c : Dev nD) → (b : Ref sig .tc) → Buf (Elt Ideal) ((c : Thread nD τ).loc b))

/-- The stored classifier block is the classifier expression of the layer's block expression. -/
theorem out2_13_eq (x0 x1 : Vec Ideal S5000x64 .f32) (x2 : Vec Ideal S5000x1 .f32) (x3 x4 : Vec Ideal S64x64 .f32)
    (x5 x6 x7 x8 x9 : Vec Ideal S1x64 .f32) (x10 : Vec Ideal S64x2 .f32) (x11 : Vec Ideal S1x2 .f32) :
    out2_13 (F := Ideal) x0 x1 x2 x3 x4 x5 x6 x7 x8 x9 x10 x11 = logitFn (blkFn x0 x1 x2 x3 x4 x5 x6 x7 x8 x9) x10 x11 := by
  unfold out2_13
  rw [View.canon_unit_zero hz2]
  simp only [View.ld_unit_zero (S := S5000x64) hz2, View.ld_unit_zero (S := S5000x1) hz2,
    View.ld_unit_zero (S := S64x64) hz2, View.ld_unit_zero (S := S1x64) hz2, View.ld_unit_zero (S := S64x2) hz2,
    View.ld_unit_zero (S := S1x2) hz2]
  unfold k2_pay2 k2_pay3 k2_pay4 k2_pay5 k2_pay6 logitFn blkFn
  unfold k2_pay1
  simp only [shapeCast_self]

/-- The row windows (features, neighbour sum, reciprocal degrees, classifier result) sit at block row `t`, block column 0. -/
theorem idxRow2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_13.index t (0 : Fin 2) = t.val ∧ win2_13.index t (1 : Fin 2) = 0 :=
  (by decide +kernel : ∀ t : Fin grid2.N, _)

/-- The weight, vector and classifier windows are their whole arrays at every point. -/
theorem idxWhole2 : ∀ t : Fin cfg2.N,
      (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = 0 ∧ win2_11.index t (1 : Fin 2) = 0) :=
  (by decide +kernel : ∀ t : Fin grid2.N, _)

theorem blkRow2_0 (c : Dev nD) (t : Fin cfg2.N) (p : Fin 5000) (k : Fin 64) (hT : t.val * 5000 + p.val < 100000) :
    iblk2 V c 0 t (ix2 p k) = V c main_v68 (ix2 ⟨t.val * 5000 + p.val, hT⟩ k) := by
  obtain ⟨e0, e1, -⟩ := idxRow2 t
  show V c main_v68 (((cfg2.win 0).blk t).view.emb (ix2 p k)) = _
  refine congrArg (V c main_v68) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * k.val = k.val; omega

theorem blkRow2_1 (c : Dev nD) (t : Fin cfg2.N) (p : Fin 5000) (k : Fin 64) (hT : t.val * 5000 + p.val < 100000) :
    iblk2 V c 1 t (ix2 p k) = V c main_v78 (ix2 ⟨t.val * 5000 + p.val, hT⟩ k) := by
  obtain ⟨-, -, e0, e1, -⟩ := idxRow2 t
  show V c main_v78 (((cfg2.win 1).blk t).view.emb (ix2 p k)) = _
  refine congrArg (V c main_v78) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * k.val = k.val; omega

theorem blkRow2_2 (c : Dev nD) (t : Fin cfg2.N) (p : Fin 5000) (hT : t.val * 5000 + p.val < 100000) :
    iblk2 V c 2 t (ix2 p (0 : Fin 1)) = V c main_v8 (ix2 ⟨t.val * 5000 + p.val, hT⟩ (0 : Fin 1)) := by
  obtain ⟨-, -, -, -, e0, e1, -⟩ := idxRow2 t
  show V c main_v8 (((cfg2.win 2).blk t).view.emb (ix2 p (0 : Fin 1))) = _
  refine congrArg (V c main_v8) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

theorem blkWhole2_3 (c : Dev nD) (t : Fin cfg2.N) : iblk2 V c 3 t = V c main_v80 := by
  obtain ⟨⟨e0, e1⟩, -⟩ := idxWhole2 t
  funext y
  show V c main_v80 (((cfg2.win 3).blk t).view.emb y) = V c main_v80 y
  refine congrArg (V c main_v80) (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

theorem blkWhole2_4 (c : Dev nD) (t : Fin cfg2.N) : iblk2 V c 4 t = V c main_v82 := by
  obtain ⟨-, ⟨e0, e1⟩, -⟩ := idxWhole2 t
  funext y
  show V c main_v82 (((cfg2.win 4).blk t).view.emb y) = V c main_v82 y
  refine congrArg (V c main_v82) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

theorem blkWhole2_5 (c : Dev nD) (t : Fin cfg2.N) : iblk2 V c 5 t = V c main_v93 := by
  obtain ⟨-, -, ⟨e0, e1⟩, -⟩ := idxWhole2 t
  funext y
  show V c main_v93 (((cfg2.win 5).blk t).view.emb y) = V c main_v93 y
  refine congrArg (V c main_v93) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

theorem blkWhole2_6 (c : Dev nD) (t : Fin cfg2.N) : iblk2 V c 6 t = V c main_v94 := by
  obtain ⟨-, -, -, ⟨e0, e1⟩, -⟩ := idxWhole2 t
  funext y
  show V c main_v94 (((cfg2.win 6).blk t).view.emb y) = V c main_v94 y
  refine congrArg (V c main_v94) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

theorem blkWhole2_7 (c : Dev nD) (t : Fin cfg2.N) : iblk2 V c 7 t = V c main_v95 := by
  obtain ⟨-, -, -, -, ⟨e0, e1⟩, -⟩ := idxWhole2 t
  funext y
  show V c main_v95 (((cfg2.win 7).blk t).view.emb y) = V c main_v95 y
  refine congrArg (V c main_v95) (funext fun a => Fin.ext ?_)
  match a with
  | ⟨0, _⟩ => show win2_7.index t (0 : Fin 2) * 1 + 1 * (y 0).val = (y 0).val; omega
  | ⟨1, _⟩ => show win2_7.index t (1 : Fin 2) * 64 + 1 * (y 1).val = (y 1).val; omega

theorem blkWhole2_8 (c : Dev nD) (t : Fin cfg2.N) : iblk2 V c 8 t = V c main_v96 := by
  obtain ⟨-, -, -, -, -, ⟨e0, e1⟩, -⟩ := idxWhole2 t
  funext y
  show V c main_v96 (((cfg2.win 8).blk t).view.emb y) = V c main_v96 y
  refine congrArg (V c main_v96) (funext fun a => Fin.ext ?_)
  match a with
  | ⟨0, _⟩ => show win2_8.index t (0 : Fin 2) * 1 + 1 * (y 0).val = (y 0).val; omega
  | ⟨1, _⟩ => show win2_8.index t (1 : Fin 2) * 64 + 1 * (y 1).val = (y 1).val; omega

theorem blkWhole2_9 (c : Dev nD) (t : Fin cfg2.N) : iblk2 V c 9 t = V c main_v97 := by
  obtain ⟨-, -, -, -, -, -, ⟨e0, e1⟩, -⟩ := idxWhole2 t
  funext y
  show V c main_v97 (((cfg2.win 9).blk t).view.emb y) = V c main_v97 y
  refine congrArg (V c main_v97) (funext fun a => Fin.ext ?_)
  match a with
  | ⟨0, _⟩ => show win2_9.index t (0 : Fin 2) * 1 + 1 * (y 0).val = (y 0).val; omega
  | ⟨1, _⟩ => show win2_9.index t (1 : Fin 2) * 64 + 1 * (y 1).val = (y 1).val; omega

theorem blkWhole2_10 (c : Dev nD) (t : Fin cfg2.N) : iblk2 V c 10 t = V c main_arg10 := by
  obtain ⟨-, -, -, -, -, -, -, ⟨e0, e1⟩, -⟩ := idxWhole2 t
  funext y
  show V c main_arg10 (((cfg2.win 10).blk t).view.emb y) = V c main_arg10 y
  refine congrArg (V c main_arg10) (funext fun a => Fin.ext ?_)
  match a with
  | ⟨0, _⟩ => show win2_10.index t (0 : Fin 2) * 64 + 1 * (y 0).val = (y 0).val; omega
  | ⟨1, _⟩ => show win2_10.index t (1 : Fin 2) * 2 + 1 * (y 1).val = (y 1).val; omega

theorem blkWhole2_11 (c : Dev nD) (t : Fin cfg2.N) : iblk2 V c 11 t = V c main_v98 := by
  obtain ⟨-, -, -, -, -, -, -, -, ⟨e0, e1⟩⟩ := idxWhole2 t
  funext y
  show V c main_v98 (((cfg2.win 11).blk t).view.emb y) = V c main_v98 y
  refine congrArg (V c main_v98) (funext fun a => Fin.ext ?_)
  match a with
  | ⟨0, _⟩ => show win2_11.index t (0 : Fin 2) * 1 + 1 * (y 0).val = (y 0).val; omega
  | ⟨1, _⟩ => show win2_11.index t (1 : Fin 2) * 2 + 1 * (y 1).val = (y 1).val; omega

/-- The last layer of the arrays the region finds. -/
def G2 (c : Dev nD) : S100000x64.Idx → EReal :=
  regionLayer (V c main_v68) (V c main_v78) (V c main_v8) (V c main_v80) (V c main_v82) (V c main_v93) (V c main_v94)
    (V c main_v95) (V c main_v96) (V c main_v97)

/-- The classifier head of that layer. -/
def L2 (c : Dev nD) : S100000x2.Idx → EReal := head (G2 V c) (V c main_arg10) (rowOf2 (V c main_v98))

/-- What point `t` writes back to the classifier result is block `t` of the head. -/
theorem flushed2_13_eq (c : Dev nD) (t : Fin cfg2.N) :
    (dat2 V c).flushed 13 t = ((cfg2.win 13).blk t).view.read (Elt Ideal) (L2 V c) := by
  show (cfg2.win 13).cut (grid2.coords t) ((dat2 V c).after 13 t) = _
  rw [after2_13, out2_13_eq, blkWhole2_3, blkWhole2_4, blkWhole2_5, blkWhole2_6, blkWhole2_7, blkWhole2_8, blkWhole2_9, blkWhole2_10, blkWhole2_11]
  obtain ⟨-, -, -, -, -, -, e0, e1⟩ := idxRow2 t
  have ht : t.val < 20 := t.isLt
  funext j
  obtain ⟨p, r, rfl⟩ : ∃ (p : Fin 5000) (r : Fin 2), j = ix2 p r := ⟨j 0, j 1, eq_ix2 j⟩
  have hT : t.val * 5000 + p.val < 100000 := by have := p.isLt; omega
  have hemb : ((cfg2.win 13).blk t).view.emb (ix2 p r) = ix2 ⟨t.val * 5000 + p.val, hT⟩ r := funext fun a => Fin.ext (by
    match a with
    | ⟨0, _⟩ => show win2_13.index t (0 : Fin 2) * 5000 + 1 * p.val = t.val * 5000 + p.val; omega
    | ⟨1, _⟩ => show win2_13.index t (1 : Fin 2) * 2 + 1 * r.val = r.val; omega)
  refine (point_head_eq (G2 V c) (V c main_arg10) (V c main_v98)
    (blkFn (iblk2 V c 0 t) (iblk2 V c 1 t) (iblk2 V c 2 t) (V c main_v80) (V c main_v82) (V c main_v93) (V c main_v94) (V c main_v95) (V c main_v96) (V c main_v97)) t.val p r hT
    (fun k => point_eq (V c main_v68) (V c main_v78) (V c main_v8) (V c main_v80) (V c main_v82) (V c main_v93) (V c main_v94) (V c main_v95) (V c main_v96) (V c main_v97)
      (iblk2 V c 0 t) (iblk2 V c 1 t) (iblk2 V c 2 t) t.val p k hT
      (fun k' => blkRow2_0 V c t p k' hT) (fun k' => blkRow2_1 V c t p k' hT) (blkRow2_2 V c t p hT))).trans ?_
  exact congrArg (L2 V c) hemb.symm

/-- An index of the classifier result is in point `t`'s block iff each coordinate is in the block's range. -/
theorem mem_blk2_13 (t : Fin cfg2.N) (i : S100000x2.Idx) :
    i ∈ ((cfg2.win 13).blk t).view.set ↔ ∀ a : Fin 2, win2_13.index t a * S5000x2.size a ≤ (i a).val ∧ (i a).val < win2_13.index t a * S5000x2.size a + S5000x2.size a := by
  show i ∈ ((View.whole main_v99_1).slice (win2_13.rect t)).set ↔ _
  rw [View.set_slice_whole, Rect.mem_set_unit]
  exact Iff.rfl

/-- Every row of the classifier result is in the block of the point `row / 5000`. -/
theorem cover2_13_rows (i : S100000x2.Idx) :
    ∃ t : Fin cfg2.N, (cfg2.win 13).flush t = true ∧ i ∈ ((cfg2.win 13).blk t).view.set := by
  have hi0 : (i 0).val < 100000 := (i 0).isLt
  have hi1 : (i 1).val < 2 := (i 1).isLt
  have hlt : (i 0).val / 5000 < 20 := by omega
  obtain ⟨-, -, -, -, -, -, e0, e1⟩ := idxRow2 ⟨(i 0).val / 5000, hlt⟩
  refine ⟨⟨(i 0).val / 5000, hlt⟩, flush2_13 _, ?_⟩
  rw [mem_blk2_13]
  intro a
  match a with
  | ⟨0, _⟩ =>
    show win2_13.index ⟨(i 0).val / 5000, hlt⟩ (0 : Fin 2) * 5000 ≤ (i 0).val ∧ (i 0).val < win2_13.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_13.index ⟨(i 0).val / 5000, hlt⟩ (1 : Fin 2) * 2 ≤ (i 1).val ∧ (i 1).val < win2_13.index ⟨(i 0).val / 5000, hlt⟩ (1 : Fin 2) * 2 + 2
    rw [e1]; omega

/-- THE CLASSIFIER ARRAY after the region: the head of the last layer of the arrays it found. -/
theorem final2_13 (c : Dev nD) : (dat2 V c).arrAt 13 cfg2.N = L2 V c :=
  (dat2 V c).arrAt_eq_of_cover 13 (L2 V c) (fun t _ => flushed2_13_eq V c t) (cover2_13_rows)

end Cert.KernelIdeal.KV

end
-- ==== Proof.KRegion1.lean ====
/-
  Layer kernel 1: the array it leaves.

  The grid has 20 points; point `t` loads rows `5000·t … 5000·t + 4999` of the features, of the neighbour sum and of
  the reciprocal-degree column, and the whole of the two weight matrices and of the five one-row vectors, and writes
  back the same rows of the result. The 20 row blocks tile the [100000, 64] result, so the array after the run is the
  layer of the arrays the region finds, whatever those are.
-/
import proofs.«154846_j13511967113638_2_alg».proof.Proof.Gen.KernelIdeal.Frame
import proofs.«154846_j13511967113638_2_alg».proof.Proof.KPoint

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Idealize.SL.Sem Cert.Sage
open Idealize.ShloMosaic.Pipeline (Dat Cfg Window)

variable (V : (c : Dev nD) → (b : Ref sig .tc) → Buf (Elt Ideal) ((c : Thread nD τ).loc b))

/-- The stored block is the block expression of the loaded blocks. -/
theorem out1_10_eq (x0 x1 : Vec Ideal S5000x64 .f32) (x2 : Vec Ideal S5000x1 .f32) (x3 x4 : Vec Ideal S64x64 .f32)
    (x5 x6 x7 x8 x9 : Vec Ideal S1x64 .f32) :
    out1_10 (F := Ideal) x0 x1 x2 x3 x4 x5 x6 x7 x8 x9 = blkFn x0 x1 x2 x3 x4 x5 x6 x7 x8 x9 := by
  unfold out1_10
  rw [View.canon_unit_zero hz2]
  simp only [View.ld_unit_zero (S := S5000x64) hz2, View.ld_unit_zero (S := S5000x1) hz2,
    View.ld_unit_zero (S := S64x64) hz2, View.ld_unit_zero (S := S1x64) hz2]
  unfold k1_pay1 k1_pay2 k1_pay3 k1_pay4 k1_pay5 blkFn
  simp only [shapeCast_self]

/-- The row windows (features, neighbour sum, reciprocal degrees, result) sit at block row `t`, block column 0. -/
theorem idxRow1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_10.index t (0 : Fin 2) = t.val ∧ win1_10.index t (1 : Fin 2) = 0 :=
  (by decide +kernel : ∀ t : Fin grid1.N, _)

/-- The weight and vector windows are their whole arrays at every point. -/
theorem idxWhole1 : ∀ t : Fin cfg1.N,
      (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

theorem blkRow1_0 (c : Dev nD) (t : Fin cfg1.N) (p : Fin 5000) (k : Fin 64) (hT : t.val * 5000 + p.val < 100000) :
    iblk1 V c 0 t (ix2 p k) = V c main_v38 (ix2 ⟨t.val * 5000 + p.val, hT⟩ k) := by
  obtain ⟨e0, e1, -⟩ := idxRow1 t
  show V c main_v38 (((cfg1.win 0).blk t).view.emb (ix2 p k)) = _
  refine congrArg (V c main_v38) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * k.val = k.val; omega

theorem blkRow1_1 (c : Dev nD) (t : Fin cfg1.N) (p : Fin 5000) (k : Fin 64) (hT : t.val * 5000 + p.val < 100000) :
    iblk1 V c 1 t (ix2 p k) = V c main_v48 (ix2 ⟨t.val * 5000 + p.val, hT⟩ k) := by
  obtain ⟨-, -, e0, e1, -⟩ := idxRow1 t
  show V c main_v48 (((cfg1.win 1).blk t).view.emb (ix2 p k)) = _
  refine congrArg (V c main_v48) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * k.val = k.val; omega

theorem blkRow1_2 (c : Dev nD) (t : Fin cfg1.N) (p : Fin 5000) (hT : t.val * 5000 + p.val < 100000) :
    iblk1 V c 2 t (ix2 p (0 : Fin 1)) = V c main_v8 (ix2 ⟨t.val * 5000 + p.val, hT⟩ (0 : Fin 1)) := by
  obtain ⟨-, -, -, -, e0, e1, -⟩ := idxRow1 t
  show V c main_v8 (((cfg1.win 2).blk t).view.emb (ix2 p (0 : Fin 1))) = _
  refine congrArg (V c main_v8) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

theorem blkWhole1_3 (c : Dev nD) (t : Fin cfg1.N) : iblk1 V c 3 t = V c main_v50 := by
  obtain ⟨⟨e0, e1⟩, -⟩ := idxWhole1 t
  funext y
  show V c main_v50 (((cfg1.win 3).blk t).view.emb y) = V c main_v50 y
  refine congrArg (V c main_v50) (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

theorem blkWhole1_4 (c : Dev nD) (t : Fin cfg1.N) : iblk1 V c 4 t = V c main_v52 := by
  obtain ⟨-, ⟨e0, e1⟩, -⟩ := idxWhole1 t
  funext y
  show V c main_v52 (((cfg1.win 4).blk t).view.emb y) = V c main_v52 y
  refine congrArg (V c main_v52) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem blkWhole1_5 (c : Dev nD) (t : Fin cfg1.N) : iblk1 V c 5 t = V c main_v63 := by
  obtain ⟨-, -, ⟨e0, e1⟩, -⟩ := idxWhole1 t
  funext y
  show V c main_v63 (((cfg1.win 5).blk t).view.emb y) = V c main_v63 y
  refine congrArg (V c main_v63) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem blkWhole1_6 (c : Dev nD) (t : Fin cfg1.N) : iblk1 V c 6 t = V c main_v64 := by
  obtain ⟨-, -, -, ⟨e0, e1⟩, -⟩ := idxWhole1 t
  funext y
  show V c main_v64 (((cfg1.win 6).blk t).view.emb y) = V c main_v64 y
  refine congrArg (V c main_v64) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

theorem blkWhole1_7 (c : Dev nD) (t : Fin cfg1.N) : iblk1 V c 7 t = V c main_v65 := by
  obtain ⟨-, -, -, -, ⟨e0, e1⟩, -⟩ := idxWhole1 t
  funext y
  show V c main_v65 (((cfg1.win 7).blk t).view.emb y) = V c main_v65 y
  refine congrArg (V c main_v65) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

theorem blkWhole1_8 (c : Dev nD) (t : Fin cfg1.N) : iblk1 V c 8 t = V c main_v66 := by
  obtain ⟨-, -, -, -, -, ⟨e0, e1⟩, -⟩ := idxWhole1 t
  funext y
  show V c main_v66 (((cfg1.win 8).blk t).view.emb y) = V c main_v66 y
  refine congrArg (V c main_v66) (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega

theorem blkWhole1_9 (c : Dev nD) (t : Fin cfg1.N) : iblk1 V c 9 t = V c main_v67 := by
  obtain ⟨-, -, -, -, -, -, ⟨e0, e1⟩⟩ := idxWhole1 t
  funext y
  show V c main_v67 (((cfg1.win 9).blk t).view.emb y) = V c main_v67 y
  refine congrArg (V c main_v67) (funext fun a => Fin.ext ?_)
  match a with
  | ⟨0, _⟩ => show win1_9.index t (0 : Fin 2) * 1 + 1 * (y 0).val = (y 0).val; omega
  | ⟨1, _⟩ => show win1_9.index t (1 : Fin 2) * 64 + 1 * (y 1).val = (y 1).val; omega

/-- The layer of the arrays the region finds. -/
def G1 (c : Dev nD) : S100000x64.Idx → EReal :=
  regionLayer (V c main_v38) (V c main_v48) (V c main_v8) (V c main_v50) (V c main_v52) (V c main_v63) (V c main_v64)
    (V c main_v65) (V c main_v66) (V c main_v67)

/-- What point `t` writes back is block `t` of the layer. -/
theorem flushed1_eq (c : Dev nD) (t : Fin cfg1.N) :
    (dat1 V c).flushed 10 t = ((cfg1.win 10).blk t).view.read (Elt Ideal) (G1 V c) := by
  show (cfg1.win 10).cut (grid1.coords t) ((dat1 V c).after 10 t) = _
  rw [after1_10, out1_10_eq, blkWhole1_3, blkWhole1_4, blkWhole1_5, blkWhole1_6, blkWhole1_7, blkWhole1_8, blkWhole1_9]
  obtain ⟨-, -, -, -, -, -, e0, e1⟩ := idxRow1 t
  have ht : t.val < 20 := t.isLt
  funext j
  obtain ⟨p, q, rfl⟩ : ∃ (p : Fin 5000) (q : Fin 64), j = ix2 p q := ⟨j 0, j 1, eq_ix2 j⟩
  have hT : t.val * 5000 + p.val < 100000 := by have := p.isLt; omega
  have hemb : ((cfg1.win 10).blk t).view.emb (ix2 p q) = ix2 ⟨t.val * 5000 + p.val, hT⟩ q := funext fun a => Fin.ext (by
    match a with
    | ⟨0, _⟩ => show win1_10.index t (0 : Fin 2) * 5000 + 1 * p.val = t.val * 5000 + p.val; omega
    | ⟨1, _⟩ => show win1_10.index t (1 : Fin 2) * 64 + 1 * q.val = q.val; omega)
  refine (point_eq (V c main_v38) (V c main_v48) (V c main_v8) (V c main_v50) (V c main_v52) (V c main_v63) (V c main_v64)
    (V c main_v65) (V c main_v66) (V c main_v67) (iblk1 V c 0 t) (iblk1 V c 1 t) (iblk1 V c 2 t) t.val p q hT
    (fun k => blkRow1_0 V c t p k hT) (fun k => blkRow1_1 V c t p k hT) (blkRow1_2 V c t p hT)).trans ?_
  exact congrArg (G1 V c) hemb.symm

/-- An index of the result is in point `t`'s block iff each coordinate is in the block's range. -/
theorem mem_blk1 (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v68).slice (win1_10.rect t)).set ↔ _
  rw [View.set_slice_whole, Rect.mem_set_unit]
  exact Iff.rfl

/-- Every row of the result is in the block of the point `row / 5000`. -/
theorem cover1 (i : S100000x64.Idx) :
    ∃ t : Fin cfg1.N, (cfg1.win 10).flush t = true ∧ i ∈ ((cfg1.win 10).blk t).view.set := by
  have hi0 : (i 0).val < 100000 := (i 0).isLt
  have hi1 : (i 1).val < 64 := (i 1).isLt
  have hlt : (i 0).val / 5000 < 20 := by omega
  obtain ⟨-, -, -, -, -, -, e0, e1⟩ := idxRow1 ⟨(i 0).val / 5000, hlt⟩
  refine ⟨⟨(i 0).val / 5000, hlt⟩, flush1_10 _, ?_⟩
  rw [mem_blk1]
  intro a
  match a with
  | ⟨0, _⟩ =>
    show win1_10.index ⟨(i 0).val / 5000, hlt⟩ (0 : Fin 2) * 5000 ≤ (i 0).val ∧ (i 0).val < win1_10.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_10.index ⟨(i 0).val / 5000, hlt⟩ (1 : Fin 2) * 64 ≤ (i 1).val ∧ (i 1).val < win1_10.index ⟨(i 0).val / 5000, hlt⟩ (1 : Fin 2) * 64 + 64
    rw [e1]; omega

/-- THE ARRAY after the region: the layer of the arrays it found. -/
theorem final1 (c : Dev nD) : (dat1 V c).arrAt 10 cfg1.N = G1 V c :=
  (dat1 V c).arrAt_eq_of_cover 10 (G1 V c) (fun t _ => flushed1_eq V c t) (cover1)

end Cert.KernelIdeal.KV

end
-- ==== Proof.KRegion0.lean ====
/-
  Layer kernel 0: the array it leaves.

  The grid has 20 points; point `t` loads rows `5000·t … 5000·t + 4999` of the features, of the neighbour sum and of
  the reciprocal-degree column, and the whole of the two weight matrices and of the five one-row vectors, and writes
  back the same rows of the result. The 20 row blocks tile the [100000, 64] result, so the array after the run is the
  layer of the arrays the region finds, whatever those are.
-/
import proofs.«154846_j13511967113638_2_alg».proof.Proof.Gen.KernelIdeal.Frame
import proofs.«154846_j13511967113638_2_alg».proof.Proof.KPoint

set_option maxRecDepth 16384

noncomputable section

open scoped BigOperators

namespace Cert.KernelIdeal.KV

open Cert.KernelIdeal Cert.KernelIdeal.Gen Idealize.ShloMosaic Idealize.ShloMosaic.TcCoe Idealize.ShloMosaic.ValueIdx Idealize.SL.Sem Cert.Sage
open Idealize.ShloMosaic.Pipeline (Dat Cfg Window)

variable (V : (c : Dev nD) → (b : Ref sig .tc) → Buf (Elt Ideal) ((c : Thread nD τ).loc b))

/-- The stored block is the block expression of the loaded blocks. -/
theorem out0_10_eq (x0 x1 : Vec Ideal S5000x64 .f32) (x2 : Vec Ideal S5000x1 .f32) (x3 x4 : Vec Ideal S64x64 .f32)
    (x5 x6 x7 x8 x9 : Vec Ideal S1x64 .f32) :
    out0_10 (F := Ideal) x0 x1 x2 x3 x4 x5 x6 x7 x8 x9 = blkFn x0 x1 x2 x3 x4 x5 x6 x7 x8 x9 := by
  unfold out0_10
  rw [View.canon_unit_zero hz2]
  simp only [View.ld_unit_zero (S := S5000x64) hz2, View.ld_unit_zero (S := S5000x1) hz2,
    View.ld_unit_zero (S := S64x64) hz2, View.ld_unit_zero (S := S1x64) hz2]
  rfl

/-- The row windows (features, neighbour sum, reciprocal degrees, result) sit at block row `t`, block column 0. -/
theorem idxRow0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_10.index t (0 : Fin 2) = t.val ∧ win0_10.index t (1 : Fin 2) = 0 :=
  (by decide +kernel : ∀ t : Fin grid0.N, _)

/-- The weight and vector windows are their whole arrays at every point. -/
theorem idxWhole0 : ∀ t : Fin cfg0.N,
      (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem blkRow0_0 (c : Dev nD) (t : Fin cfg0.N) (p : Fin 5000) (k : Fin 64) (hT : t.val * 5000 + p.val < 100000) :
    iblk0 V c 0 t (ix2 p k) = V c main_arg0 (ix2 ⟨t.val * 5000 + p.val, hT⟩ k) := by
  obtain ⟨e0, e1, -⟩ := idxRow0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem blkRow0_1 (c : Dev nD) (t : Fin cfg0.N) (p : Fin 5000) (k : Fin 64) (hT : t.val * 5000 + p.val < 100000) :
    iblk0 V c 1 t (ix2 p k) = V c main_v18 (ix2 ⟨t.val * 5000 + p.val, hT⟩ k) := by
  obtain ⟨-, -, e0, e1, -⟩ := idxRow0 t
  show V c main_v18 (((cfg0.win 1).blk t).view.emb (ix2 p k)) = _
  refine congrArg (V c main_v18) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

theorem blkRow0_2 (c : Dev nD) (t : Fin cfg0.N) (p : Fin 5000) (hT : t.val * 5000 + p.val < 100000) :
    iblk0 V c 2 t (ix2 p (0 : Fin 1)) = V c main_v8 (ix2 ⟨t.val * 5000 + p.val, hT⟩ (0 : Fin 1)) := by
  obtain ⟨-, -, -, -, e0, e1, -⟩ := idxRow0 t
  show V c main_v8 (((cfg0.win 2).blk t).view.emb (ix2 p (0 : Fin 1))) = _
  refine congrArg (V c main_v8) (funext fun a => Fin.ext ?_)
  match a with
  | ⟨0, _⟩ => show win0_2.index t (0 : Fin 2) * 5000 + 1 * p.val = t.val * 5000 + p.val; omega
  | ⟨1, _⟩ => show win0_2.index t (1 : Fin 2) * 1 + 1 * 0 = 0; omega

theorem blkWhole0_3 (c : Dev nD) (t : Fin cfg0.N) : iblk0 V c 3 t = V c main_v20 := by
  obtain ⟨⟨e0, e1⟩, -⟩ := idxWhole0 t
  funext y
  show V c main_v20 (((cfg0.win 3).blk t).view.emb y) = V c main_v20 y
  refine congrArg (V c main_v20) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

theorem blkWhole0_4 (c : Dev nD) (t : Fin cfg0.N) : iblk0 V c 4 t = V c main_v22 := by
  obtain ⟨-, ⟨e0, e1⟩, -⟩ := idxWhole0 t
  funext y
  show V c main_v22 (((cfg0.win 4).blk t).view.emb y) = V c main_v22 y
  refine congrArg (V c main_v22) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem blkWhole0_5 (c : Dev nD) (t : Fin cfg0.N) : iblk0 V c 5 t = V c main_v33 := by
  obtain ⟨-, -, ⟨e0, e1⟩, -⟩ := idxWhole0 t
  funext y
  show V c main_v33 (((cfg0.win 5).blk t).view.emb y) = V c main_v33 y
  refine congrArg (V c main_v33) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem blkWhole0_6 (c : Dev nD) (t : Fin cfg0.N) : iblk0 V c 6 t = V c main_v34 := by
  obtain ⟨-, -, -, ⟨e0, e1⟩, -⟩ := idxWhole0 t
  funext y
  show V c main_v34 (((cfg0.win 6).blk t).view.emb y) = V c main_v34 y
  refine congrArg (V c main_v34) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

theorem blkWhole0_7 (c : Dev nD) (t : Fin cfg0.N) : iblk0 V c 7 t = V c main_v35 := by
  obtain ⟨-, -, -, -, ⟨e0, e1⟩, -⟩ := idxWhole0 t
  funext y
  show V c main_v35 (((cfg0.win 7).blk t).view.emb y) = V c main_v35 y
  refine congrArg (V c main_v35) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

theorem blkWhole0_8 (c : Dev nD) (t : Fin cfg0.N) : iblk0 V c 8 t = V c main_v36 := by
  obtain ⟨-, -, -, -, -, ⟨e0, e1⟩, -⟩ := idxWhole0 t
  funext y
  show V c main_v36 (((cfg0.win 8).blk t).view.emb y) = V c main_v36 y
  refine congrArg (V c main_v36) (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

theorem blkWhole0_9 (c : Dev nD) (t : Fin cfg0.N) : iblk0 V c 9 t = V c main_v37 := by
  obtain ⟨-, -, -, -, -, -, ⟨e0, e1⟩⟩ := idxWhole0 t
  funext y
  show V c main_v37 (((cfg0.win 9).blk t).view.emb y) = V c main_v37 y
  refine congrArg (V c main_v37) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- The layer of the arrays the region finds. -/
def G0 (c : Dev nD) : S100000x64.Idx → EReal :=
  regionLayer (V c main_arg0) (V c main_v18) (V c main_v8) (V c main_v20) (V c main_v22) (V c main_v33) (V c main_v34)
    (V c main_v35) (V c main_v36) (V c main_v37)

/-- What point `t` writes back is block `t` of the layer. -/
theorem flushed0_eq (c : Dev nD) (t : Fin cfg0.N) :
    (dat0 V c).flushed 10 t = ((cfg0.win 10).blk t).view.read (Elt Ideal) (G0 V c) := by
  show (cfg0.win 10).cut (grid0.coords t) ((dat0 V c).after 10 t) = _
  rw [after0_10, out0_10_eq, blkWhole0_3, blkWhole0_4, blkWhole0_5, blkWhole0_6, blkWhole0_7, blkWhole0_8, blkWhole0_9]
  obtain ⟨-, -, -, -, -, -, e0, e1⟩ := idxRow0 t
  have ht : t.val < 20 := t.isLt
  funext j
  obtain ⟨p, q, rfl⟩ : ∃ (p : Fin 5000) (q : Fin 64), j = ix2 p q := ⟨j 0, j 1, eq_ix2 j⟩
  have hT : t.val * 5000 + p.val < 100000 := by have := p.isLt; omega
  have hemb : ((cfg0.win 10).blk t).view.emb (ix2 p q) = ix2 ⟨t.val * 5000 + p.val, hT⟩ q := funext fun a => Fin.ext (by
    match a with
    | ⟨0, _⟩ => show win0_10.index t (0 : Fin 2) * 5000 + 1 * p.val = t.val * 5000 + p.val; omega
    | ⟨1, _⟩ => show win0_10.index t (1 : Fin 2) * 64 + 1 * q.val = q.val; omega)
  refine (point_eq (V c main_arg0) (V c main_v18) (V c main_v8) (V c main_v20) (V c main_v22) (V c main_v33) (V c main_v34)
    (V c main_v35) (V c main_v36) (V c main_v37) (iblk0 V c 0 t) (iblk0 V c 1 t) (iblk0 V c 2 t) t.val p q hT
    (fun k => blkRow0_0 V c t p k hT) (fun k => blkRow0_1 V c t p k hT) (blkRow0_2 V c t p hT)).trans ?_
  exact congrArg (G0 V c) hemb.symm

/-- An index of the result is in point `t`'s block iff each coordinate is in the block's range. -/
theorem mem_blk0 (t : Fin cfg0.N) (i : S100000x64.Idx) :
    i ∈ ((cfg0.win 10).blk t).view.set ↔ ∀ a : Fin 2, win0_10.index t a * S5000x64.size a ≤ (i a).val ∧ (i a).val < win0_10.index t a * S5000x64.size a + S5000x64.size a := by
  show i ∈ ((View.whole main_v38).slice (win0_10.rect t)).set ↔ _
  rw [View.set_slice_whole, Rect.mem_set_unit]
  exact Iff.rfl

/-- Every row of the result is in the block of the point `row / 5000`. -/
theorem cover0 (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hlt : (i 0).val / 5000 < 20 := by omega
  obtain ⟨-, -, -, -, -, -, e0, e1⟩ := idxRow0 ⟨(i 0).val / 5000, hlt⟩
  refine ⟨⟨(i 0).val / 5000, hlt⟩, flush0_10 _, ?_⟩
  rw [mem_blk0]
  intro a
  match a with
  | ⟨0, _⟩ =>
    show win0_10.index ⟨(i 0).val / 5000, hlt⟩ (0 : Fin 2) * 5000 ≤ (i 0).val ∧ (i 0).val < win0_10.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_10.index ⟨(i 0).val / 5000, hlt⟩ (1 : Fin 2) * 64 ≤ (i 1).val ∧ (i 1).val < win0_10.index ⟨(i 0).val / 5000, hlt⟩ (1 : Fin 2) * 64 + 64
    rw [e1]; omega

/-- THE ARRAY after the region: the layer of the arrays it found. -/
theorem final0 (c : Dev nD) : (dat0 V c).arrAt 10 cfg0.N = G0 V c :=
  (dat0 V c).arrAt_eq_of_cover 10 (G0 V c) (fun t _ => flushed0_eq V c t) (cover0)

end Cert.KernelIdeal.KV

end
-- ==== Proof.Degree.lean ====
/-
  The clamped in-degree is a real number other than zero.

  Adding a one into a zero vector at every edge's target counts the edges into each node; the maximum of that count
  and one is a natural number, at least one.
-/
import proofs.«154846_j13511967113638_2_alg».proof.Proof.Spec
import Idealize.ShloMosaic.Lib.Pipeline.Value

noncomputable section

open scoped BigOperators

namespace Cert.Sage

open Idealize.ShloMosaic

/-- A scalar constant spread over any shape reads as the constant at every index. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  (broadcastInDim_apply ![] h (constant (F := Ideal) ⟨0, ![]⟩ .f32 b) i (fun a => a.elim0) (fun a => a.elim0)).trans rfl

/-- The count of the updates landing on an index, started from zero and clamped below by one, is a real number
    other than zero. -/
theorem clamped_degree_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, r ≠ 0 ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_real _

end Cert.Sage

end
-- ==== Proof.LibRowOfVector.lean ====
/-
  A vector laid down as a one-row matrix, two ways.

  A `[b]` vector reshaped to `[1, b]` and the same vector broadcast into `[1, b]` along the second axis are one array:
  entry `(0, q)` of either is entry `q` of the vector.
-/
import Idealize.ShloMosaic.Lib.Pipeline.Value
import Idealize.ShloMosaic.Lib.ValueLayout
import Idealize.ShloMosaic.Lib.ValueIdx

namespace Cert.LibRowOfVector

open Idealize.ShloMosaic Idealize.ShloMosaic.ValueIdx

/-- For `b ≠ 1`, the reshape of a `[b]` vector to `[1, b]` is its broadcast into `[1, b]` along axis 1. -/
theorem shapeCast_eq_broadcastInDim {b : ℕ} {α : Type} (hb : b ≠ 1) (v : (⟨1, ![b]⟩ : Shape).Idx → α)
    (h : (⟨1, ![b]⟩ : Shape).ShapeCasts ⟨2, ![1, b]⟩) (h' : (⟨1, ![b]⟩ : Shape).BroadcastsInDim ⟨2, ![1, b]⟩ ![1]) :
    shapeCast ⟨2, ![1, b]⟩ v h = broadcastInDim ⟨2, ![1, b]⟩ ![1] h' v := by
  funext i
  obtain ⟨u, q, rfl⟩ : ∃ (u : Fin 1) (q : Fin b), i = ix2 u q := ⟨i 0, i 1, eq_ix2 i⟩
  rw [shapeCast_a_1a_apply v h u q]
  refine (broadcastInDim_apply ![1] h' v (ix2 u q) (ix1 q) fun a => ?_).symm
  match a with
  | ⟨0, _⟩ =>
    show q.val = if b = 1 then 0 else q.val
    rw [if_neg hb]

end Cert.LibRowOfVector
-- ==== Proof.KDeg.lean ====
/-
  The clamped in-degree and its reciprocal.

  The in-degree of a node is a count of edges (ones added into a zero), clamped below by one: a real number other than
  zero. So the neighbour sum times the reciprocal of the degree, the reciprocal laid out as a column, is the neighbour
  sum over the degree. Also: a vector reshaped to one row and read back is the vector.
-/
import proofs.«154846_j13511967113638_2_alg».proof.Proof.Gen.KernelIdeal.Frame
import proofs.«154846_j13511967113638_2_alg».proof.Proof.Gen.ReferenceIdeal.Read
import proofs.«154846_j13511967113638_2_alg».proof.Proof.KPoint
import proofs.«154846_j13511967113638_2_alg».proof.Proof.Spec
import proofs.«154846_j13511967113638_2_alg».proof.Proof.Degree
import proofs.«154846_j13511967113638_2_alg».proof.Proof.LibRowOfVector
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Cert.ReferenceIdeal.Read Idealize.ShloMosaic Idealize.ShloMosaic.TcCoe
open Idealize.ShloMosaic.ValueIdx Idealize.SL.Sem Idealize.ShloMosaic.StableHlo Cert.Sage

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-- The reciprocal of a degree vector, stood up as a column. -/
def invCol (d : S100000.Idx → EReal) : S100000x1.Idx → EReal :=
  broadcastInDim S100000x1 ![0] Facts₀.bcast_S100000_S100000x1_0
    (Host.divf (broadcastInDim S100000 ![] Facts₀.bcast_S_S100000 (constant (F := Ideal) S_ .f32 0x3F800000#32)) d)

/-- A [64] vector reshaped to one row and read back as a vector is itself. -/
theorem rowOf_shapeCast (v : S64.Idx → EReal) (h : S64.ShapeCasts S1x64) : rowOf (shapeCast S1x64 v h) = v := by
  funext j
  obtain ⟨q, rfl⟩ : ∃ q : Fin 64, j = ix1 q := ⟨j 0, eq_ix1 j⟩
  exact shapeCast_a_1a_apply v h (0 : Fin 1) q

/-- A [2] vector reshaped to one row and read back as a vector is itself. -/
theorem rowOf2_shapeCast (v : S2.Idx → EReal) (h : S2.ShapeCasts S1x2) : rowOf2 (shapeCast S1x2 v h) = v := by
  funext j
  obtain ⟨q, rfl⟩ : ∃ q : Fin 2, j = ix1 q := ⟨j 0, eq_ix1 j⟩
  exact shapeCast_a_1a_apply v h (0 : Fin 1) q

/-- The clamped in-degree of a node is a real number other than zero: a count of ones, at least one. -/
theorem deg_real (x2 : (⟨S1600000, .i32⟩ : BufTy).Contents (Elt Ideal)) (p : Fin 100000) :
    ∃ r : ℝ, r ≠ 0 ∧ val_main_v5 (F := Ideal) x2 (ix1 p) = (r : EReal) := by
  unfold val_main_v5 val_main_v3 val_main_v4 val_main_v1 val_main_v0 val_main_cst val_main_cst_0 val_main_cst_1
  exact clamped_degree_real _ _ _ _ (ix1 p)

/-- Times the reciprocal of the degree is over the degree. -/
theorem timesInv_invCol (S : S100000x64.Idx → EReal) (d : S100000.Idx → EReal)
    (hd : ∀ p : Fin 100000, ∃ r : ℝ, r ≠ 0 ∧ d (ix1 p) = (r : EReal)) : timesInv S (invCol d) = meanOf S d := by
  funext i
  obtain ⟨p, k, rfl⟩ : ∃ (p : Fin 100000) (k : Fin 64), i = ix2 p k := ⟨i 0, i 1, eq_ix2 i⟩
  obtain ⟨r, hr, e⟩ := hd p
  have hcol : invCol d (ix2 p (0 : Fin 1)) = Ideal.div (Ideal.ofBits .f32 0x3F800000#32) (d (ix1 p)) := by
    unfold invCol
    refine (broadcastInDim_apply ![0] Facts₀.bcast_S100000_S100000x1_0 _ (ix2 p (0 : Fin 1)) (ix1 p) fun a => ?_).trans ?_
    · match a with
      | ⟨0, _⟩ => show p.val = if (100000 : Nat) = 1 then 0 else p.val; rw [if_neg (by decide)]
    · rfl
  show S (ix2 p k) * invCol d (ix2 p (0 : Fin 1)) = Ideal.div (S (ix2 p k)) (d (ix1 p))
  rw [hcol, e]
  exact mul_recip_eq_div _ hr

end Cert.KernelIdeal.KV

end
-- ==== Proof.KHost0.lean ====
/-
  The first layer on the idealized kernel's side.

  Before the first kernel the host computes the clamped in-degree `d` of every node (a count of edges, at least one),
  its reciprocal as a column, the neighbour sum of the input features, and the first layer's slices of the stacked
  parameters. The first kernel then leaves the layer of the features with the neighbour term `S ⊙ (1/d)`; since `d` is
  a real number other than zero this is `S / d`, the mean over the in-neighbours.
-/
import proofs.«154846_j13511967113638_2_alg».proof.Proof.Gen.KernelIdeal.Frame
import proofs.«154846_j13511967113638_2_alg».proof.Proof.Gen.ReferenceIdeal.Read
import proofs.«154846_j13511967113638_2_alg».proof.Proof.KRegion0
import proofs.«154846_j13511967113638_2_alg».proof.Proof.Spec
import proofs.«154846_j13511967113638_2_alg».proof.Proof.KDeg
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Cert.ReferenceIdeal.Read Idealize.ShloMosaic Idealize.ShloMosaic.TcCoe
open Idealize.ShloMosaic.ValueIdx Idealize.SL.Sem Idealize.ShloMosaic.StableHlo Cert.Sage

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## What the first kernel finds -/

theorem V1_h : V1 m ρ c main_arg0 = a0 := by
  show StableHlo.after hostOps0 (W0 m ρ c) (Proc.devRef .tc main_arg0) = _
  after_results_simp <;> rfl
theorem V1_S : V1 m ρ c main_v18 = val_main_v16 (F := Ideal) a0 a1 a2 := by
  show StableHlo.after hostOps0 (W0 m ρ c) (Proc.devRef .tc main_v18) = _
  after_results_simp <;> rfl
theorem V1_inv : V1 m ρ c main_v8 = invCol (val_main_v5 (F := Ideal) a2) := by
  show StableHlo.after hostOps0 (W0 m ρ c) (Proc.devRef .tc main_v8) = _
  after_results_simp <;> rfl
theorem V1_Ws : V1 m ρ c main_v20 = val_main_v20 (F := Ideal) a3 := by
  show StableHlo.after hostOps0 (W0 m ρ c) (Proc.devRef .tc main_v20) = _
  after_results_simp <;> rfl
theorem V1_Wn : V1 m ρ c main_v22 = val_main_v23 (F := Ideal) a4 := by
  show StableHlo.after hostOps0 (W0 m ρ c) (Proc.devRef .tc main_v22) = _
  after_results_simp <;> rfl
theorem V1_b : V1 m ρ c main_v33 = shapeCast S1x64 (val_main_v27 (F := Ideal) a5) Facts₀.shapeCasts_S64_S1x64 := by
  show StableHlo.after hostOps0 (W0 m ρ c) (Proc.devRef .tc main_v33) = _
  after_results_simp <;> rfl
theorem V1_g : V1 m ρ c main_v34 = shapeCast S1x64 (val_main_v37 (F := Ideal) a6) Facts₀.shapeCasts_S64_S1x64 := by
  show StableHlo.after hostOps0 (W0 m ρ c) (Proc.devRef .tc main_v34) = _
  after_results_simp <;> rfl
theorem V1_be : V1 m ρ c main_v35 = shapeCast S1x64 (val_main_v48 (F := Ideal) a7) Facts₀.shapeCasts_S64_S1x64 := by
  show StableHlo.after hostOps0 (W0 m ρ c) (Proc.devRef .tc main_v35) = _
  after_results_simp <;> rfl
theorem V1_mu : V1 m ρ c main_v36 = shapeCast S1x64 (val_main_v32 (F := Ideal) a8) Facts₀.shapeCasts_S64_S1x64 := by
  show StableHlo.after hostOps0 (W0 m ρ c) (Proc.devRef .tc main_v36) = _
  after_results_simp <;> rfl
theorem V1_va : V1 m ρ c main_v37 = shapeCast S1x64 (val_main_v39 (F := Ideal) a9) Facts₀.shapeCasts_S64_S1x64 := by
  show StableHlo.after hostOps0 (W0 m ρ c) (Proc.devRef .tc main_v37) = _
  after_results_simp <;> rfl

/-- The first layer of the input features: the mean over the in-neighbours as the neighbour term. -/
def K1 : S100000x64.Idx → EReal :=
  layer a0 (meanOf (val_main_v16 (F := Ideal) a0 a1 a2) (val_main_v5 (F := Ideal) a2)) (val_main_v20 (F := Ideal) a3)
    (val_main_v23 (F := Ideal) a4) (val_main_v27 (F := Ideal) a5) (val_main_v37 (F := Ideal) a6) (val_main_v48 (F := Ideal) a7)
    (val_main_v32 (F := Ideal) a8) (val_main_v39 (F := Ideal) a9)

/-- The first kernel leaves the first layer. -/
theorem region0_value : (dat0 (V1 m ρ) c).arrAt 10 cfg0.N = K1 m c := by
  rw [final0]
  unfold G0
  rw [V1_h, V1_S, V1_inv, V1_Ws, V1_Wn, V1_b, V1_g, V1_be, V1_mu, V1_va]
  unfold regionLayer K1
  rw [timesInv_invCol _ _ (deg_real _), rowOf_shapeCast, rowOf_shapeCast, rowOf_shapeCast, rowOf_shapeCast, rowOf_shapeCast]

end Cert.KernelIdeal.KV

end
-- ==== Proof.KLayerEq.lean ====
/-
  A region's layer is the specification's layer.

  The arrays a layer kernel finds are the features, the neighbour sum, the reciprocal-degree column, the two weight
  matrices and five vectors laid down as rows. With the degree a real number other than zero at every node, the layer
  the kernel computes from them is the layer with the mean over the in-neighbours as the neighbour term and the five
  vectors themselves.
-/
import proofs.«154846_j13511967113638_2_alg».proof.Proof.KDeg
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Cert.ReferenceIdeal.Read Idealize.ShloMosaic Idealize.ShloMosaic.TcCoe
open Idealize.ShloMosaic.ValueIdx Idealize.SL.Sem Idealize.ShloMosaic.StableHlo Cert.Sage

variable (m : (ℓ : Loc nD τ sig) → Buf (Elt Ideal) ℓ) (ρ : Dev nD → PrngReg) (c : Dev nD)

/-- The region's layer, the reciprocal degrees as a column and the vectors as rows, is the layer of the mean. -/
theorem regionLayer_eq (h S : S100000x64.Idx → EReal) (d : S100000.Idx → EReal)
    (hd : ∀ p : Fin 100000, ∃ r : ℝ, r ≠ 0 ∧ d (ix1 p) = (r : EReal))
    (Ws Wn : S64x64.Idx → EReal) (b g be mu va : S64.Idx → EReal) (hc : S64.ShapeCasts S1x64) :
    regionLayer h S (invCol d) Ws Wn (shapeCast S1x64 b hc) (shapeCast S1x64 g hc) (shapeCast S1x64 be hc)
      (shapeCast S1x64 mu hc) (shapeCast S1x64 va hc) = layer h (meanOf S d) Ws Wn b g be mu va := by
  unfold regionLayer
  rw [timesInv_invCol S d hd, rowOf_shapeCast, rowOf_shapeCast, rowOf_shapeCast, rowOf_shapeCast, rowOf_shapeCast]

end Cert.KernelIdeal.KV

end
-- ==== Proof.KHost1.lean ====
/-
  The second layer on the idealized kernel's side.

  After the first kernel the host gathers and sums the first layer's rows along the edges and slices the second layer's
  parameters; the reciprocal-degree column and the arguments are untouched. The second kernel leaves the layer of the
  first layer's output, with the mean over the in-neighbours as the neighbour term.
-/
import proofs.«154846_j13511967113638_2_alg».proof.Proof.Gen.KernelIdeal.Frame
import proofs.«154846_j13511967113638_2_alg».proof.Proof.Gen.ReferenceIdeal.Read
import proofs.«154846_j13511967113638_2_alg».proof.Proof.KRegion1
import proofs.«154846_j13511967113638_2_alg».proof.Proof.KHost0
import proofs.«154846_j13511967113638_2_alg».proof.Proof.KLayerEq
import proofs.«154846_j13511967113638_2_alg».proof.Proof.Spec
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Cert.ReferenceIdeal.Read Idealize.ShloMosaic Idealize.ShloMosaic.TcCoe
open Idealize.ShloMosaic.ValueIdx Idealize.SL.Sem Idealize.ShloMosaic.StableHlo Cert.Sage

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## What the first kernel and the first stretch of host operations leave -/

theorem W2_h : W2 m ρ c (Proc.devRef .tc main_v38) = K1 m c := (W2_arr m ρ c 10).trans (region0_value m ρ c)

theorem W2_inv : W2 m ρ c (Proc.devRef .tc main_v8) = invCol (val_main_v5 (F := Ideal) a2) :=
  (W2_arr m ρ c 2).trans (((dat0 (V1 m ρ) c).arrAt_in 2 rfl _).trans ((A_eq0 (V1 m ρ) c 2).trans (V1_inv m ρ c)))

theorem W2_arg1 : W2 m ρ c (Proc.devRef .tc main_arg1) = a1 :=
  (W2_of_ne m ρ c main_arg1 (by decide)).trans (by
    show StableHlo.after hostOps0 (W0 m ρ c) (Proc.devRef .tc main_arg1) = _
    after_results_simp <;> rfl)

theorem W2_arg2 : W2 m ρ c (Proc.devRef .tc main_arg2) = a2 :=
  (W2_of_ne m ρ c main_arg2 (by decide)).trans (by
    show StableHlo.after hostOps0 (W0 m ρ c) (Proc.devRef .tc main_arg2) = _
    after_results_simp <;> rfl)

theorem W2_arg3 : W2 m ρ c (Proc.devRef .tc main_arg3) = a3 :=
  (W2_of_ne m ρ c main_arg3 (by decide)).trans (by
    show StableHlo.after hostOps0 (W0 m ρ c) (Proc.devRef .tc main_arg3) = _
    after_results_simp <;> rfl)

theorem W2_arg4 : W2 m ρ c (Proc.devRef .tc main_arg4) = a4 :=
  (W2_of_ne m ρ c main_arg4 (by decide)).trans (by
    show StableHlo.after hostOps0 (W0 m ρ c) (Proc.devRef .tc main_arg4) = _
    after_results_simp <;> rfl)

theorem W2_arg5 : W2 m ρ c (Proc.devRef .tc main_arg5) = a5 :=
  (W2_of_ne m ρ c main_arg5 (by decide)).trans (by
    show StableHlo.after hostOps0 (W0 m ρ c) (Proc.devRef .tc main_arg5) = _
    after_results_simp <;> rfl)

theorem W2_arg6 : W2 m ρ c (Proc.devRef .tc main_arg6) = a6 :=
  (W2_of_ne m ρ c main_arg6 (by decide)).trans (by
    show StableHlo.after hostOps0 (W0 m ρ c) (Proc.devRef .tc main_arg6) = _
    after_results_simp <;> rfl)

theorem W2_arg7 : W2 m ρ c (Proc.devRef .tc main_arg7) = a7 :=
  (W2_of_ne m ρ c main_arg7 (by decide)).trans (by
    show StableHlo.after hostOps0 (W0 m ρ c) (Proc.devRef .tc main_arg7) = _
    after_results_simp <;> rfl)

theorem W2_arg8 : W2 m ρ c (Proc.devRef .tc main_arg8) = a8 :=
  (W2_of_ne m ρ c main_arg8 (by decide)).trans (by
    show StableHlo.after hostOps0 (W0 m ρ c) (Proc.devRef .tc main_arg8) = _
    after_results_simp <;> rfl)

theorem W2_arg9 : W2 m ρ c (Proc.devRef .tc main_arg9) = a9 :=
  (W2_of_ne m ρ c main_arg9 (by decide)).trans (by
    show StableHlo.after hostOps0 (W0 m ρ c) (Proc.devRef .tc main_arg9) = _
    after_results_simp <;> rfl)

theorem W2_arg10 : W2 m ρ c (Proc.devRef .tc main_arg10) = a10 :=
  (W2_of_ne m ρ c main_arg10 (by decide)).trans (by
    show StableHlo.after hostOps0 (W0 m ρ c) (Proc.devRef .tc main_arg10) = _
    after_results_simp <;> rfl)

theorem W2_arg11 : W2 m ρ c (Proc.devRef .tc main_arg11) = a11 :=
  (W2_of_ne m ρ c main_arg11 (by decide)).trans (by
    show StableHlo.after hostOps0 (W0 m ρ c) (Proc.devRef .tc main_arg11) = _
    after_results_simp <;> rfl)

/-! ## What the second kernel finds -/

theorem V3_h : V3 m ρ c main_v38 = K1 m c := by
  show StableHlo.after hostOps1 (W2 m ρ c) (Proc.devRef .tc main_v38) = _
  after_results_simp
  exact W2_h m ρ c
theorem V3_S : V3 m ρ c main_v48 = val_main_v16 (F := Ideal) (K1 m c) a1 a2 := by
  show StableHlo.after hostOps1 (W2 m ρ c) (Proc.devRef .tc main_v48) = _
  after_results_simp
  rw [W2_arg1, W2_arg2, W2_h]; rfl
theorem V3_inv : V3 m ρ c main_v8 = invCol (val_main_v5 (F := Ideal) a2) := by
  show StableHlo.after hostOps1 (W2 m ρ c) (Proc.devRef .tc main_v8) = _
  after_results_simp
  exact W2_inv m ρ c
theorem V3_Ws : V3 m ρ c main_v50 = val_main_v66 (F := Ideal) a3 := by
  show StableHlo.after hostOps1 (W2 m ρ c) (Proc.devRef .tc main_v50) = _
  after_results_simp
  rw [W2_arg3]; rfl
theorem V3_Wn : V3 m ρ c main_v52 = val_main_v69 (F := Ideal) a4 := by
  show StableHlo.after hostOps1 (W2 m ρ c) (Proc.devRef .tc main_v52) = _
  after_results_simp
  rw [W2_arg4]; rfl
theorem V3_b : V3 m ρ c main_v63 = shapeCast S1x64 (val_main_v73 (F := Ideal) a5) Facts₀.shapeCasts_S64_S1x64 := by
  show StableHlo.after hostOps1 (W2 m ρ c) (Proc.devRef .tc main_v63) = _
  after_results_simp
  rw [W2_arg5]; rfl
theorem V3_g : V3 m ρ c main_v64 = shapeCast S1x64 (val_main_v83 (F := Ideal) a6) Facts₀.shapeCasts_S64_S1x64 := by
  show StableHlo.after hostOps1 (W2 m ρ c) (Proc.devRef .tc main_v64) = _
  after_results_simp
  rw [W2_arg6]; rfl
theorem V3_be : V3 m ρ c main_v65 = shapeCast S1x64 (val_main_v94 (F := Ideal) a7) Facts₀.shapeCasts_S64_S1x64 := by
  show StableHlo.after hostOps1 (W2 m ρ c) (Proc.devRef .tc main_v65) = _
  after_results_simp
  rw [W2_arg7]; rfl
theorem V3_mu : V3 m ρ c main_v66 = shapeCast S1x64 (val_main_v78 (F := Ideal) a8) Facts₀.shapeCasts_S64_S1x64 := by
  show StableHlo.after hostOps1 (W2 m ρ c) (Proc.devRef .tc main_v66) = _
  after_results_simp
  rw [W2_arg8]; rfl
theorem V3_va : V3 m ρ c main_v67 = shapeCast S1x64 (val_main_v85 (F := Ideal) a9) Facts₀.shapeCasts_S64_S1x64 := by
  show StableHlo.after hostOps1 (W2 m ρ c) (Proc.devRef .tc main_v67) = _
  after_results_simp
  rw [W2_arg9]; rfl

/-- The second layer: of the first layer's output. -/
def K2 : S100000x64.Idx → EReal :=
  layer (K1 m c) (meanOf (val_main_v16 (F := Ideal) (K1 m c) a1 a2) (val_main_v5 (F := Ideal) a2)) (val_main_v66 (F := Ideal) a3)
    (val_main_v69 (F := Ideal) a4) (val_main_v73 (F := Ideal) a5) (val_main_v83 (F := Ideal) a6) (val_main_v94 (F := Ideal) a7)
    (val_main_v78 (F := Ideal) a8) (val_main_v85 (F := Ideal) a9)

/-- The second kernel leaves the second layer. -/
theorem region1_value : (dat1 (V3 m ρ) c).arrAt 10 cfg1.N = K2 m c := by
  rw [final1]
  unfold G1
  rw [V3_h, V3_S, V3_inv, V3_Ws, V3_Wn, V3_b, V3_g, V3_be, V3_mu, V3_va]
  exact regionLayer_eq (K1 m c) (val_main_v16 (F := Ideal) (K1 m c) a1 a2) (val_main_v5 (F := Ideal) a2) (deg_real a2)
    (val_main_v66 (F := Ideal) a3) (val_main_v69 (F := Ideal) a4) (val_main_v73 (F := Ideal) a5) (val_main_v83 (F := Ideal) a6)
    (val_main_v94 (F := Ideal) a7) (val_main_v78 (F := Ideal) a8) (val_main_v85 (F := Ideal) a9) Facts₀.shapeCasts_S64_S1x64

end Cert.KernelIdeal.KV

end
-- ==== Proof.KHost2.lean ====
/-
  The last layer and the classifier on the idealized kernel's side.

  After the second kernel the host gathers and sums the second layer's rows along the edges, slices the last layer's
  parameters and lays the classifier's bias down as a row. The last kernel leaves, in the result array, the classifier
  head of the third layer.
-/
import proofs.«154846_j13511967113638_2_alg».proof.Proof.Gen.KernelIdeal.Frame
import proofs.«154846_j13511967113638_2_alg».proof.Proof.Gen.ReferenceIdeal.Read
import proofs.«154846_j13511967113638_2_alg».proof.Proof.KRegion2
import proofs.«154846_j13511967113638_2_alg».proof.Proof.KHost1
import proofs.«154846_j13511967113638_2_alg».proof.Proof.Spec
import Idealize.ShloMosaic.Lib.StableHlo.Run
import Idealize.ShloMosaic.Lib.ValueLayout

set_option maxRecDepth 16384

noncomputable section

open scoped BigOperators

namespace Cert.KernelIdeal.KV

open Cert.KernelIdeal Cert.KernelIdeal.Gen Cert.ReferenceIdeal.Read Idealize.ShloMosaic Idealize.ShloMosaic.TcCoe
open Idealize.ShloMosaic.ValueIdx Idealize.SL.Sem Idealize.ShloMosaic.StableHlo Cert.Sage

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ## What the second kernel and the second stretch of host operations leave -/

theorem W4_h : W4 m ρ c (Proc.devRef .tc main_v68) = K2 m c := (W4_arr m ρ c 10).trans (region1_value m ρ c)

theorem W4_inv : W4 m ρ c (Proc.devRef .tc main_v8) = invCol (val_main_v5 (F := Ideal) a2) :=
  (W4_arr m ρ c 2).trans (((dat1 (V3 m ρ) c).arrAt_in 2 rfl _).trans ((A_eq1 (V3 m ρ) c 2).trans (V3_inv m ρ c)))

theorem W4_arg1 : W4 m ρ c (Proc.devRef .tc main_arg1) = a1 :=
  (W4_of_ne m ρ c main_arg1 (by decide)).trans (by
    show StableHlo.after hostOps1 (W2 m ρ c) (Proc.devRef .tc main_arg1) = _
    after_results_simp
    exact W2_arg1 m ρ c)

theorem W4_arg2 : W4 m ρ c (Proc.devRef .tc main_arg2) = a2 :=
  (W4_of_ne m ρ c main_arg2 (by decide)).trans (by
    show StableHlo.after hostOps1 (W2 m ρ c) (Proc.devRef .tc main_arg2) = _
    after_results_simp
    exact W2_arg2 m ρ c)

theorem W4_arg3 : W4 m ρ c (Proc.devRef .tc main_arg3) = a3 :=
  (W4_of_ne m ρ c main_arg3 (by decide)).trans (by
    show StableHlo.after hostOps1 (W2 m ρ c) (Proc.devRef .tc main_arg3) = _
    after_results_simp
    exact W2_arg3 m ρ c)

theorem W4_arg4 : W4 m ρ c (Proc.devRef .tc main_arg4) = a4 :=
  (W4_of_ne m ρ c main_arg4 (by decide)).trans (by
    show StableHlo.after hostOps1 (W2 m ρ c) (Proc.devRef .tc main_arg4) = _
    after_results_simp
    exact W2_arg4 m ρ c)

theorem W4_arg5 : W4 m ρ c (Proc.devRef .tc main_arg5) = a5 :=
  (W4_of_ne m ρ c main_arg5 (by decide)).trans (by
    show StableHlo.after hostOps1 (W2 m ρ c) (Proc.devRef .tc main_arg5) = _
    after_results_simp
    exact W2_arg5 m ρ c)

theorem W4_arg6 : W4 m ρ c (Proc.devRef .tc main_arg6) = a6 :=
  (W4_of_ne m ρ c main_arg6 (by decide)).trans (by
    show StableHlo.after hostOps1 (W2 m ρ c) (Proc.devRef .tc main_arg6) = _
    after_results_simp
    exact W2_arg6 m ρ c)

theorem W4_arg7 : W4 m ρ c (Proc.devRef .tc main_arg7) = a7 :=
  (W4_of_ne m ρ c main_arg7 (by decide)).trans (by
    show StableHlo.after hostOps1 (W2 m ρ c) (Proc.devRef .tc main_arg7) = _
    after_results_simp
    exact W2_arg7 m ρ c)

theorem W4_arg8 : W4 m ρ c (Proc.devRef .tc main_arg8) = a8 :=
  (W4_of_ne m ρ c main_arg8 (by decide)).trans (by
    show StableHlo.after hostOps1 (W2 m ρ c) (Proc.devRef .tc main_arg8) = _
    after_results_simp
    exact W2_arg8 m ρ c)

theorem W4_arg9 : W4 m ρ c (Proc.devRef .tc main_arg9) = a9 :=
  (W4_of_ne m ρ c main_arg9 (by decide)).trans (by
    show StableHlo.after hostOps1 (W2 m ρ c) (Proc.devRef .tc main_arg9) = _
    after_results_simp
    exact W2_arg9 m ρ c)

theorem W4_arg10 : W4 m ρ c (Proc.devRef .tc main_arg10) = a10 :=
  (W4_of_ne m ρ c main_arg10 (by decide)).trans (by
    show StableHlo.after hostOps1 (W2 m ρ c) (Proc.devRef .tc main_arg10) = _
    after_results_simp
    exact W2_arg10 m ρ c)

theorem W4_arg11 : W4 m ρ c (Proc.devRef .tc main_arg11) = a11 :=
  (W4_of_ne m ρ c main_arg11 (by decide)).trans (by
    show StableHlo.after hostOps1 (W2 m ρ c) (Proc.devRef .tc main_arg11) = _
    after_results_simp
    exact W2_arg11 m ρ c)

/-! ## What the last kernel finds -/

theorem V5_h : V5 m ρ c main_v68 = K2 m c := by
  show StableHlo.after hostOps2 (W4 m ρ c) (Proc.devRef .tc main_v68) = _
  after_results_simp
  exact W4_h m ρ c
theorem V5_S : V5 m ρ c main_v78 = val_main_v16 (F := Ideal) (K2 m c) a1 a2 := by
  show StableHlo.after hostOps2 (W4 m ρ c) (Proc.devRef .tc main_v78) = _
  after_results_simp
  rw [W4_arg1, W4_arg2, W4_h]; rfl
theorem V5_inv : V5 m ρ c main_v8 = invCol (val_main_v5 (F := Ideal) a2) := by
  show StableHlo.after hostOps2 (W4 m ρ c) (Proc.devRef .tc main_v8) = _
  after_results_simp
  exact W4_inv m ρ c
theorem V5_Ws : V5 m ρ c main_v80 = val_main_v112 (F := Ideal) a3 := by
  show StableHlo.after hostOps2 (W4 m ρ c) (Proc.devRef .tc main_v80) = _
  after_results_simp
  rw [W4_arg3]; rfl
theorem V5_Wn : V5 m ρ c main_v82 = val_main_v115 (F := Ideal) a4 := by
  show StableHlo.after hostOps2 (W4 m ρ c) (Proc.devRef .tc main_v82) = _
  after_results_simp
  rw [W4_arg4]; rfl
theorem V5_b : V5 m ρ c main_v93 = shapeCast S1x64 (val_main_v119 (F := Ideal) a5) Facts₀.shapeCasts_S64_S1x64 := by
  show StableHlo.after hostOps2 (W4 m ρ c) (Proc.devRef .tc main_v93) = _
  after_results_simp
  rw [W4_arg5]; rfl
theorem V5_g : V5 m ρ c main_v94 = shapeCast S1x64 (val_main_v129 (F := Ideal) a6) Facts₀.shapeCasts_S64_S1x64 := by
  show StableHlo.after hostOps2 (W4 m ρ c) (Proc.devRef .tc main_v94) = _
  after_results_simp
  rw [W4_arg6]; rfl
theorem V5_be : V5 m ρ c main_v95 = shapeCast S1x64 (val_main_v140 (F := Ideal) a7) Facts₀.shapeCasts_S64_S1x64 := by
  show StableHlo.after hostOps2 (W4 m ρ c) (Proc.devRef .tc main_v95) = _
  after_results_simp
  rw [W4_arg7]; rfl
theorem V5_mu : V5 m ρ c main_v96 = shapeCast S1x64 (val_main_v124 (F := Ideal) a8) Facts₀.shapeCasts_S64_S1x64 := by
  show StableHlo.after hostOps2 (W4 m ρ c) (Proc.devRef .tc main_v96) = _
  after_results_simp
  rw [W4_arg8]; rfl
theorem V5_va : V5 m ρ c main_v97 = shapeCast S1x64 (val_main_v131 (F := Ideal) a9) Facts₀.shapeCasts_S64_S1x64 := by
  show StableHlo.after hostOps2 (W4 m ρ c) (Proc.devRef .tc main_v97) = _
  after_results_simp
  rw [W4_arg9]; rfl
theorem V5_Wc : V5 m ρ c main_arg10 = a10 := by
  show StableHlo.after hostOps2 (W4 m ρ c) (Proc.devRef .tc main_arg10) = _
  after_results_simp
  exact W4_arg10 m ρ c
theorem V5_bc : V5 m ρ c main_v98 = shapeCast S1x2 a11 Facts₀.shapeCasts_S2_S1x2 := by
  show StableHlo.after hostOps2 (W4 m ρ c) (Proc.devRef .tc main_v98) = _
  after_results_simp
  rw [W4_arg11]; rfl

/-- The third layer: of the second layer's output. -/
def K3 : S100000x64.Idx → EReal :=
  layer (K2 m c) (meanOf (val_main_v16 (F := Ideal) (K2 m c) a1 a2) (val_main_v5 (F := Ideal) a2)) (val_main_v112 (F := Ideal) a3)
    (val_main_v115 (F := Ideal) a4) (val_main_v119 (F := Ideal) a5) (val_main_v129 (F := Ideal) a6) (val_main_v140 (F := Ideal) a7)
    (val_main_v124 (F := Ideal) a8) (val_main_v131 (F := Ideal) a9)

/-- The classifier head of the third layer. -/
def KOut : S100000x2.Idx → EReal := head (K3 m c) a10 a11

/-- The last kernel leaves the classifier head of the third layer in the result array. -/
theorem region2_value : (dat2 (V5 m ρ) c).arrAt 13 cfg2.N = KOut m c := by
  rw [final2_13]
  have hG : G2 (V5 m ρ) c = K3 m c := by
    unfold G2
    rw [V5_h, V5_S, V5_inv, V5_Ws, V5_Wn, V5_b, V5_g, V5_be, V5_mu, V5_va]
    exact regionLayer_eq (K2 m c) (val_main_v16 (F := Ideal) (K2 m c) a1 a2) (val_main_v5 (F := Ideal) a2) (deg_real a2)
      (val_main_v112 (F := Ideal) a3) (val_main_v115 (F := Ideal) a4) (val_main_v119 (F := Ideal) a5) (val_main_v129 (F := Ideal) a6)
      (val_main_v140 (F := Ideal) a7) (val_main_v124 (F := Ideal) a8) (val_main_v131 (F := Ideal) a9) Facts₀.shapeCasts_S64_S1x64
  have hbc : rowOf2 (V5 m ρ c main_v98) = a11 := by
    rw [V5_bc]
    exact rowOf2_shapeCast _ _
  unfold L2 KOut
  rw [hG, hbc]
  exact congrArg (fun z => head (K3 m c) z a11) (V5_Wc m ρ c)

end Cert.KernelIdeal.KV

end
-- ==== Proof.RefLayers.lean ====
/-
  The reference program, stage by stage, is the specification.

  Each of the three graph layers of the reference computes, at node `p` and feature `q`,

      max ( ((Σ_k h(p,k)·Ws(k,q) + Σ_k Hn(p,k)·Wn(k,q)) + b(q) - mu(q)) · (g(q) · rsqrt(va(q) + ε)) + be(q), 0 ),

  where `h` is the previous layer's output (the input features for layer 0), `Hn(p,k)` is the scatter-added neighbour
  sum at `(p,k)` divided by the clamped in-degree of `p`, and the weights and the five vectors are the layer's slices of
  the stacked parameters. The result is `Σ_k h₃(p,k)·Wc(k,r) + bc(r)` on the last layer's output `h₃`. Every step is
  read at one entry: a row broadcast reads its vector at the column, a matrix product is the sum over the contracted
  coordinate, and the elementwise operations are the extended reals'.
-/
import proofs.«154846_j13511967113638_2_alg».proof.Proof.Gen.ReferenceIdeal.Read
import proofs.«154846_j13511967113638_2_alg».proof.Proof.Spec

noncomputable section

open scoped BigOperators

namespace Cert.ReferenceIdeal.RefValue

open Cert.ReferenceIdeal Cert.ReferenceIdeal.Read Cert.Sage Idealize.ShloMosaic Idealize.ShloMosaic.ValueIdx

/-! ## Layer 0 -/

/-- The bias row read at `(p, q)` is the bias vector at `q`. -/
theorem row_v29 (x : (⟨S3x64, .f32⟩ : BufTy).Contents (Elt Ideal)) (p : Fin 100000) (q : Fin 64) :
    val_main_v29 (F := Ideal) x (ix2 p q) = val_main_v27 (F := Ideal) x (ix1 q) := by
  rw [val_main_v29_apply, val_main_v28_apply]
  exact congrArg _ (funext fun a => Fin.ext (by match a with | ⟨0, _⟩ => rfl))

/-- The running-mean row read at `(p, q)` is the running-mean vector at `q`. -/
theorem row_v34 (x : (⟨S3x64, .f32⟩ : BufTy).Contents (Elt Ideal)) (p : Fin 100000) (q : Fin 64) :
    val_main_v34 (F := Ideal) x (ix2 p q) = val_main_v32 (F := Ideal) x (ix1 q) := by
  rw [val_main_v34_apply, val_main_v33_apply]
  exact congrArg _ (funext fun a => Fin.ext (by match a with | ⟨0, _⟩ => rfl))

/-- The shift row read at `(p, q)` is the shift vector at `q`. -/
theorem row_v50 (x : (⟨S3x64, .f32⟩ : BufTy).Contents (Elt Ideal)) (p : Fin 100000) (q : Fin 64) :
    val_main_v50 (F := Ideal) x (ix2 p q) = val_main_v48 (F := Ideal) x (ix1 q) := by
  rw [val_main_v50_apply, val_main_v49_apply]
  exact congrArg _ (funext fun a => Fin.ext (by match a with | ⟨0, _⟩ => rfl))

/-- The normalising factor read at `(p, q)`: the scale at `q` times the reciprocal square root of the running
    variance at `q` plus ε. -/
theorem row_v45 (x6 x9 : (⟨S3x64, .f32⟩ : BufTy).Contents (Elt Ideal)) (p : Fin 100000) (q : Fin 64) :
    val_main_v45 (F := Ideal) x6 x9 (ix2 p q)
      = val_main_v37 (F := Ideal) x6 (ix1 q)
          * Ideal.rsqrt (val_main_v39 (F := Ideal) x9 (ix1 q) + Ideal.ofBits .f32 0x3727C5AC#32) := by
  rw [val_main_v45_apply, val_main_v44_apply, val_main_v43_apply, val_main_v42_apply, val_main_v41_apply,
    val_main_v40_apply, val_main_cst_4_apply]
  have e : idx_main_v44 (idx_main_v45 (ix2 p q)) = ix1 q :=
    funext fun a => Fin.ext (by match a with | ⟨0, _⟩ => rfl)
  rw [e]
  rfl

/-- The zero the rectifier compares with. -/
theorem zero_call0 (i : S100000x64.Idx) :
    val_main_call0_v0 (F := Ideal) i = Ideal.ofBits .f32 0x00000000#32 := by
  rw [val_main_call0_v0_apply, val_main_call0_cst_apply]
  rfl

/-- The self term at `(p, q)`: the sum over `k` of the features at `(p, k)` times the weights at `(k, q)`. -/
theorem dot_v21 (x0 : (⟨S100000x64, .f32⟩ : BufTy).Contents (Elt Ideal)) (x3 : (⟨S3x64x64, .f32⟩ : BufTy).Contents (Elt Ideal))
    (p : Fin 100000) (q : Fin 64) :
    val_main_v21 (F := Ideal) x0 x3 (ix2 p q)
      = ∑ k : Fin 64, x0 (ix2 p k) * val_main_v20 (F := Ideal) x3 (ix2 k q) := by
  rw [val_main_v21_apply]
  refine Finset.sum_congr rfl fun k _ => ?_
  have el : lidx_main_v21 (ix2 p q) k = ix2 p k :=
    funext fun a => Fin.ext (by match a with | ⟨0, _⟩ => rfl | ⟨1, _⟩ => rfl)
  have er : ridx_main_v21 (ix2 p q) k = ix2 k q :=
    funext fun a => Fin.ext (by match a with | ⟨0, _⟩ => rfl | ⟨1, _⟩ => rfl)
  rw [el, er]

/-- The neighbour sum over the clamped degree, at `(p, k)`. -/
theorem mean_v18 (x0 : (⟨S100000x64, .f32⟩ : BufTy).Contents (Elt Ideal)) (x1 x2 : (⟨S1600000, .i32⟩ : BufTy).Contents (Elt Ideal))
    (p : Fin 100000) (k : Fin 64) :
    val_main_v18 (F := Ideal) x0 x1 x2 (ix2 p k)
      = meanOf (val_main_v16 (F := Ideal) x0 x1 x2) (val_main_v5 (F := Ideal) x2) (ix2 p k) := by
  rw [val_main_v18_apply, val_main_v17_apply, val_main_v6_apply]
  have e : idx_main_v6 (idx_main_v17 (ix2 p k)) = ix1 p :=
    funext fun a => Fin.ext (by match a with | ⟨0, _⟩ => rfl)
  rw [e]
  rfl

/-- The neighbour term at `(p, q)`: the sum over `k` of the neighbour mean at `(p, k)` times the weights at `(k, q)`. -/
theorem dot_v24 (x0 : (⟨S100000x64, .f32⟩ : BufTy).Contents (Elt Ideal)) (x1 x2 : (⟨S1600000, .i32⟩ : BufTy).Contents (Elt Ideal))
    (x4 : (⟨S3x64x64, .f32⟩ : BufTy).Contents (Elt Ideal)) (p : Fin 100000) (q : Fin 64) :
    val_main_v24 (F := Ideal) x0 x1 x2 x4 (ix2 p q)
      = ∑ k : Fin 64, meanOf (val_main_v16 (F := Ideal) x0 x1 x2) (val_main_v5 (F := Ideal) x2) (ix2 p k)
          * val_main_v23 (F := Ideal) x4 (ix2 k q) := by
  rw [val_main_v24_apply]
  refine Finset.sum_congr rfl fun k _ => ?_
  have el : lidx_main_v24 (ix2 p q) k = ix2 p k :=
    funext fun a => Fin.ext (by match a with | ⟨0, _⟩ => rfl | ⟨1, _⟩ => rfl)
  have er : ridx_main_v24 (ix2 p q) k = ix2 k q :=
    funext fun a => Fin.ext (by match a with | ⟨0, _⟩ => rfl | ⟨1, _⟩ => rfl)
  rw [el, er, mean_v18]

/-- Layer 0 of the reference is the specification's layer on the input features, with the neighbour term the
    scatter-added neighbour sum over the clamped in-degree. -/
theorem layer0_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) :
    val_main_v52 (F := Ideal) x0 x1 x2 x3 x4 x5 x6 x7 x8 x9
      = layer x0 (meanOf (val_main_v16 (F := Ideal) x0 x1 x2) (val_main_v5 (F := Ideal) x2)) (val_main_v20 (F := Ideal) x3)
          (val_main_v23 (F := Ideal) x4) (val_main_v27 (F := Ideal) x5) (val_main_v37 (F := Ideal) x6) (val_main_v48 (F := Ideal) x7)
          (val_main_v32 (F := Ideal) x8) (val_main_v39 (F := Ideal) x9) := by
  funext i
  obtain ⟨p, q, rfl⟩ : ∃ (p : Fin 100000) (q : Fin 64), i = ix2 p q := ⟨i 0, i 1, eq_ix2 i⟩
  rw [layer_ix2]
  unfold layerAt
  rw [val_main_v52_apply, val_main_v51_apply, val_main_v46_apply, val_main_v35_apply, val_main_v30_apply,
    val_main_v25_apply, dot_v21, dot_v24, row_v29, row_v34, row_v45, row_v50, zero_call0]
  rfl

/-! ## Layer 1 -/

/-- The bias row read at `(p, q)` is the bias vector at `q`. -/
theorem row_v75 (x : (⟨S3x64, .f32⟩ : BufTy).Contents (Elt Ideal)) (p : Fin 100000) (q : Fin 64) :
    val_main_v75 (F := Ideal) x (ix2 p q) = val_main_v73 (F := Ideal) x (ix1 q) := by
  rw [val_main_v75_apply, val_main_v74_apply]
  exact congrArg _ (funext fun a => Fin.ext (by match a with | ⟨0, _⟩ => rfl))

/-- The running-mean row read at `(p, q)` is the running-mean vector at `q`. -/
theorem row_v80 (x : (⟨S3x64, .f32⟩ : BufTy).Contents (Elt Ideal)) (p : Fin 100000) (q : Fin 64) :
    val_main_v80 (F := Ideal) x (ix2 p q) = val_main_v78 (F := Ideal) x (ix1 q) := by
  rw [val_main_v80_apply, val_main_v79_apply]
  exact congrArg _ (funext fun a => Fin.ext (by match a with | ⟨0, _⟩ => rfl))

/-- The shift row read at `(p, q)` is the shift vector at `q`. -/
theorem row_v96 (x : (⟨S3x64, .f32⟩ : BufTy).Contents (Elt Ideal)) (p : Fin 100000) (q : Fin 64) :
    val_main_v96 (F := Ideal) x (ix2 p q) = val_main_v94 (F := Ideal) x (ix1 q) := by
  rw [val_main_v96_apply, val_main_v95_apply]
  exact congrArg _ (funext fun a => Fin.ext (by match a with | ⟨0, _⟩ => rfl))

/-- The normalising factor read at `(p, q)`: the scale at `q` times the reciprocal square root of the running
    variance at `q` plus ε. -/
theorem row_v91 (x6 x9 : (⟨S3x64, .f32⟩ : BufTy).Contents (Elt Ideal)) (p : Fin 100000) (q : Fin 64) :
    val_main_v91 (F := Ideal) x6 x9 (ix2 p q)
      = val_main_v83 (F := Ideal) x6 (ix1 q)
          * Ideal.rsqrt (val_main_v85 (F := Ideal) x9 (ix1 q) + Ideal.ofBits .f32 0x3727C5AC#32) := by
  rw [val_main_v91_apply, val_main_v90_apply, val_main_v89_apply, val_main_v88_apply, val_main_v87_apply,
    val_main_v86_apply, val_main_cst_8_apply]
  have e : idx_main_v90 (idx_main_v91 (ix2 p q)) = ix1 q :=
    funext fun a => Fin.ext (by match a with | ⟨0, _⟩ => rfl)
  rw [e]
  rfl

/-- The zero the rectifier compares with. -/
theorem zero_call1 (i : S100000x64.Idx) :
    val_main_call1_v0 (F := Ideal) i = Ideal.ofBits .f32 0x00000000#32 := by
  rw [val_main_call1_v0_apply, val_main_call1_cst_apply]
  rfl

/-- The self term at `(p, q)`: the sum over `k` of layer 0's output at `(p, k)` times the weights at `(k, q)`. -/
theorem dot_v67 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (q : Fin 64) :
    val_main_v67 (F := Ideal) x0 x1 x2 x3 x4 x5 x6 x7 x8 x9 (ix2 p q)
      = ∑ k : Fin 64, val_main_v52 (F := Ideal) x0 x1 x2 x3 x4 x5 x6 x7 x8 x9 (ix2 p k) * val_main_v66 (F := Ideal) x3 (ix2 k q) := by
  rw [val_main_v67_apply]
  refine Finset.sum_congr rfl fun k _ => ?_
  have el : lidx_main_v67 (ix2 p q) k = ix2 p k :=
    funext fun a => Fin.ext (by match a with | ⟨0, _⟩ => rfl | ⟨1, _⟩ => rfl)
  have er : ridx_main_v67 (ix2 p q) k = ix2 k q :=
    funext fun a => Fin.ext (by match a with | ⟨0, _⟩ => rfl | ⟨1, _⟩ => rfl)
  rw [el, er]

/-- The neighbour sum over the clamped degree, at `(p, k)`. -/
theorem mean_v64 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (k : Fin 64) :
    val_main_v64 (F := Ideal) x0 x1 x2 x3 x4 x5 x6 x7 x8 x9 (ix2 p k)
      = meanOf (val_main_v62 (F := Ideal) x0 x1 x2 x3 x4 x5 x6 x7 x8 x9) (val_main_v5 (F := Ideal) x2) (ix2 p k) := by
  rw [val_main_v64_apply, val_main_v63_apply, val_main_v6_apply]
  have e : idx_main_v6 (idx_main_v63 (ix2 p k)) = ix1 p :=
    funext fun a => Fin.ext (by match a with | ⟨0, _⟩ => rfl)
  rw [e]
  rfl

/-- The neighbour term at `(p, q)`: the sum over `k` of the neighbour mean at `(p, k)` times the weights at `(k, q)`. -/
theorem dot_v70 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (q : Fin 64) :
    val_main_v70 (F := Ideal) x0 x1 x2 x3 x4 x5 x6 x7 x8 x9 (ix2 p q)
      = ∑ k : Fin 64, meanOf (val_main_v62 (F := Ideal) x0 x1 x2 x3 x4 x5 x6 x7 x8 x9) (val_main_v5 (F := Ideal) x2) (ix2 p k)
          * val_main_v69 (F := Ideal) x4 (ix2 k q) := by
  rw [val_main_v70_apply]
  refine Finset.sum_congr rfl fun k _ => ?_
  have el : lidx_main_v70 (ix2 p q) k = ix2 p k :=
    funext fun a => Fin.ext (by match a with | ⟨0, _⟩ => rfl | ⟨1, _⟩ => rfl)
  have er : ridx_main_v70 (ix2 p q) k = ix2 k q :=
    funext fun a => Fin.ext (by match a with | ⟨0, _⟩ => rfl | ⟨1, _⟩ => rfl)
  rw [el, er, mean_v64]

/-- Layer 1 of the reference is the specification's layer on layer 0's output, with the neighbour term the
    scatter-added neighbour sum over the clamped in-degree. -/
theorem layer1_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) :
    val_main_v98 (F := Ideal) x0 x1 x2 x3 x4 x5 x6 x7 x8 x9
      = layer (val_main_v52 (F := Ideal) x0 x1 x2 x3 x4 x5 x6 x7 x8 x9)
          (meanOf (val_main_v62 (F := Ideal) x0 x1 x2 x3 x4 x5 x6 x7 x8 x9) (val_main_v5 (F := Ideal) x2))
          (val_main_v66 (F := Ideal) x3) (val_main_v69 (F := Ideal) x4) (val_main_v73 (F := Ideal) x5) (val_main_v83 (F := Ideal) x6)
          (val_main_v94 (F := Ideal) x7) (val_main_v78 (F := Ideal) x8) (val_main_v85 (F := Ideal) x9) := by
  funext i
  obtain ⟨p, q, rfl⟩ : ∃ (p : Fin 100000) (q : Fin 64), i = ix2 p q := ⟨i 0, i 1, eq_ix2 i⟩
  rw [layer_ix2]
  unfold layerAt
  rw [val_main_v98_apply, val_main_v97_apply, val_main_v92_apply, val_main_v81_apply, val_main_v76_apply,
    val_main_v71_apply, dot_v67, dot_v70, row_v75, row_v80, row_v91, row_v96, zero_call1]
  rfl

/-! ## Layer 2 -/

/-- The bias row read at `(p, q)` is the bias vector at `q`. -/
theorem row_v121 (x : (⟨S3x64, .f32⟩ : BufTy).Contents (Elt Ideal)) (p : Fin 100000) (q : Fin 64) :
    val_main_v121 (F := Ideal) x (ix2 p q) = val_main_v119 (F := Ideal) x (ix1 q) := by
  rw [val_main_v121_apply, val_main_v120_apply]
  exact congrArg _ (funext fun a => Fin.ext (by match a with | ⟨0, _⟩ => rfl))

/-- The running-mean row read at `(p, q)` is the running-mean vector at `q`. -/
theorem row_v126 (x : (⟨S3x64, .f32⟩ : BufTy).Contents (Elt Ideal)) (p : Fin 100000) (q : Fin 64) :
    val_main_v126 (F := Ideal) x (ix2 p q) = val_main_v124 (F := Ideal) x (ix1 q) := by
  rw [val_main_v126_apply, val_main_v125_apply]
  exact congrArg _ (funext fun a => Fin.ext (by match a with | ⟨0, _⟩ => rfl))

/-- The shift row read at `(p, q)` is the shift vector at `q`. -/
theorem row_v142 (x : (⟨S3x64, .f32⟩ : BufTy).Contents (Elt Ideal)) (p : Fin 100000) (q : Fin 64) :
    val_main_v142 (F := Ideal) x (ix2 p q) = val_main_v140 (F := Ideal) x (ix1 q) := by
  rw [val_main_v142_apply, val_main_v141_apply]
  exact congrArg _ (funext fun a => Fin.ext (by match a with | ⟨0, _⟩ => rfl))

/-- The normalising factor read at `(p, q)`: the scale at `q` times the reciprocal square root of the running
    variance at `q` plus ε. -/
theorem row_v137 (x6 x9 : (⟨S3x64, .f32⟩ : BufTy).Contents (Elt Ideal)) (p : Fin 100000) (q : Fin 64) :
    val_main_v137 (F := Ideal) x6 x9 (ix2 p q)
      = val_main_v129 (F := Ideal) x6 (ix1 q)
          * Ideal.rsqrt (val_main_v131 (F := Ideal) x9 (ix1 q) + Ideal.ofBits .f32 0x3727C5AC#32) := by
  rw [val_main_v137_apply, val_main_v136_apply, val_main_v135_apply, val_main_v134_apply, val_main_v133_apply,
    val_main_v132_apply, val_main_cst_12_apply]
  have e : idx_main_v136 (idx_main_v137 (ix2 p q)) = ix1 q :=
    funext fun a => Fin.ext (by match a with | ⟨0, _⟩ => rfl)
  rw [e]
  rfl

/-- The zero the rectifier compares with. -/
theorem zero_call2 (i : S100000x64.Idx) :
    val_main_call2_v0 (F := Ideal) i = Ideal.ofBits .f32 0x00000000#32 := by
  rw [val_main_call2_v0_apply, val_main_call2_cst_apply]
  rfl

/-- The self term at `(p, q)`: the sum over `k` of layer 1's output at `(p, k)` times the weights at `(k, q)`. -/
theorem dot_v113 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (q : Fin 64) :
    val_main_v113 (F := Ideal) x0 x1 x2 x3 x4 x5 x6 x7 x8 x9 (ix2 p q)
      = ∑ k : Fin 64, val_main_v98 (F := Ideal) x0 x1 x2 x3 x4 x5 x6 x7 x8 x9 (ix2 p k) * val_main_v112 (F := Ideal) x3 (ix2 k q) := by
  rw [val_main_v113_apply]
  refine Finset.sum_congr rfl fun k _ => ?_
  have el : lidx_main_v113 (ix2 p q) k = ix2 p k :=
    funext fun a => Fin.ext (by match a with | ⟨0, _⟩ => rfl | ⟨1, _⟩ => rfl)
  have er : ridx_main_v113 (ix2 p q) k = ix2 k q :=
    funext fun a => Fin.ext (by match a with | ⟨0, _⟩ => rfl | ⟨1, _⟩ => rfl)
  rw [el, er]

/-- The neighbour sum over the clamped degree, at `(p, k)`. -/
theorem mean_v110 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (k : Fin 64) :
    val_main_v110 (F := Ideal) x0 x1 x2 x3 x4 x5 x6 x7 x8 x9 (ix2 p k)
      = meanOf (val_main_v108 (F := Ideal) x0 x1 x2 x3 x4 x5 x6 x7 x8 x9) (val_main_v5 (F := Ideal) x2) (ix2 p k) := by
  rw [val_main_v110_apply, val_main_v109_apply, val_main_v6_apply]
  have e : idx_main_v6 (idx_main_v109 (ix2 p k)) = ix1 p :=
    funext fun a => Fin.ext (by match a with | ⟨0, _⟩ => rfl)
  rw [e]
  rfl

/-- The neighbour term at `(p, q)`: the sum over `k` of the neighbour mean at `(p, k)` times the weights at `(k, q)`. -/
theorem dot_v116 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (p : Fin 100000) (q : Fin 64) :
    val_main_v116 (F := Ideal) x0 x1 x2 x3 x4 x5 x6 x7 x8 x9 (ix2 p q)
      = ∑ k : Fin 64, meanOf (val_main_v108 (F := Ideal) x0 x1 x2 x3 x4 x5 x6 x7 x8 x9) (val_main_v5 (F := Ideal) x2) (ix2 p k)
          * val_main_v115 (F := Ideal) x4 (ix2 k q) := by
  rw [val_main_v116_apply]
  refine Finset.sum_congr rfl fun k _ => ?_
  have el : lidx_main_v116 (ix2 p q) k = ix2 p k :=
    funext fun a => Fin.ext (by match a with | ⟨0, _⟩ => rfl | ⟨1, _⟩ => rfl)
  have er : ridx_main_v116 (ix2 p q) k = ix2 k q :=
    funext fun a => Fin.ext (by match a with | ⟨0, _⟩ => rfl | ⟨1, _⟩ => rfl)
  rw [el, er, mean_v110]

/-- Layer 2 of the reference is the specification's layer on layer 1's output, with the neighbour term the
    scatter-added neighbour sum over the clamped in-degree. -/
theorem layer2_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) :
    val_main_v144 (F := Ideal) x0 x1 x2 x3 x4 x5 x6 x7 x8 x9
      = layer (val_main_v98 (F := Ideal) x0 x1 x2 x3 x4 x5 x6 x7 x8 x9)
          (meanOf (val_main_v108 (F := Ideal) x0 x1 x2 x3 x4 x5 x6 x7 x8 x9) (val_main_v5 (F := Ideal) x2))
          (val_main_v112 (F := Ideal) x3) (val_main_v115 (F := Ideal) x4) (val_main_v119 (F := Ideal) x5) (val_main_v129 (F := Ideal) x6)
          (val_main_v140 (F := Ideal) x7) (val_main_v124 (F := Ideal) x8) (val_main_v131 (F := Ideal) x9) := by
  funext i
  obtain ⟨p, q, rfl⟩ : ∃ (p : Fin 100000) (q : Fin 64), i = ix2 p q := ⟨i 0, i 1, eq_ix2 i⟩
  rw [layer_ix2]
  unfold layerAt
  rw [val_main_v144_apply, val_main_v143_apply, val_main_v138_apply, val_main_v127_apply, val_main_v122_apply,
    val_main_v117_apply, dot_v113, dot_v116, row_v121, row_v126, row_v137, row_v142, zero_call2]
  rfl

/-! ## The classifier head -/

/-- The classifier's product at `(p, r)`: the sum over `k` of layer 2's output at `(p, k)` times the class weights at `(k, r)`. -/
theorem dot_v145 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (x10 : (⟨S64x2, .f32⟩ : BufTy).Contents (Elt Ideal)) (p : Fin 100000) (r : Fin 2) :
    val_main_v145 (F := Ideal) x0 x1 x2 x3 x4 x5 x6 x7 x8 x9 x10 (ix2 p r)
      = ∑ k : Fin 64, val_main_v144 (F := Ideal) x0 x1 x2 x3 x4 x5 x6 x7 x8 x9 (ix2 p k) * x10 (ix2 k r) := by
  rw [val_main_v145_apply]
  refine Finset.sum_congr rfl fun k _ => ?_
  have el : lidx_main_v145 (ix2 p r) k = ix2 p k :=
    funext fun a => Fin.ext (by match a with | ⟨0, _⟩ => rfl | ⟨1, _⟩ => rfl)
  have er : ridx_main_v145 (ix2 p r) k = ix2 k r :=
    funext fun a => Fin.ext (by match a with | ⟨0, _⟩ => rfl | ⟨1, _⟩ => rfl)
  rw [el, er]

/-- The class-bias row read at `(p, r)` is the class bias at `r`. -/
theorem row_v147 (x11 : (⟨S2, .f32⟩ : BufTy).Contents (Elt Ideal)) (p : Fin 100000) (r : Fin 2) :
    val_main_v147 (F := Ideal) x11 (ix2 p r) = x11 (ix1 r) := by
  rw [val_main_v147_apply, val_main_v146_apply]
  exact congrArg _ (funext fun a => Fin.ext (by match a with | ⟨0, _⟩ => rfl))

/-- The reference's result is the specification's classifier head on layer 2's output. -/
theorem head_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) (x10 : (⟨S64x2, .f32⟩ : BufTy).Contents (Elt Ideal)) (x11 : (⟨S2, .f32⟩ : BufTy).Contents (Elt Ideal)) :
    val_main_v148 (F := Ideal) x0 x1 x2 x3 x4 x5 x6 x7 x8 x9 x10 x11
      = head (val_main_v144 (F := Ideal) x0 x1 x2 x3 x4 x5 x6 x7 x8 x9) x10 x11 := by
  funext i
  obtain ⟨p, r, rfl⟩ : ∃ (p : Fin 100000) (r : Fin 2), i = ix2 p r := ⟨i 0, i 1, eq_ix2 i⟩
  rw [head_ix2]
  unfold headAt
  rw [val_main_v148_apply, dot_v145, row_v147]
  rfl

end Cert.ReferenceIdeal.RefValue

end
-- ==== Proof.RefChain.lean ====
/-
  The reference as three layers and a head, each layer a function of the one before.

  The neighbour sum of a layer is one function of the layer's input (gather the rows along the edges' sources, add them
  at the edges' targets), the same function at every layer; so the reference's result is the classifier head of the
  third of three nested layers of the input features.
-/
import proofs.«154846_j13511967113638_2_alg».proof.Proof.RefLayers

noncomputable section

open scoped BigOperators

namespace Cert.ReferenceIdeal.RefValue

open Cert.ReferenceIdeal Cert.ReferenceIdeal.Read Cert.Sage Idealize.ShloMosaic Idealize.ShloMosaic.ValueIdx

/-- The first layer: of the input features. -/
def R1 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : S100000x64.Idx → EReal :=
  layer x0 (meanOf (val_main_v16 (F := Ideal) x0 x1 x2) (val_main_v5 (F := Ideal) x2)) (val_main_v20 (F := Ideal) x3)
    (val_main_v23 (F := Ideal) x4) (val_main_v27 (F := Ideal) x5) (val_main_v37 (F := Ideal) x6) (val_main_v48 (F := Ideal) x7) (val_main_v32 (F := Ideal) x8) (val_main_v39 (F := Ideal) x9)

/-- The second layer: of the first. -/
def R2 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : S100000x64.Idx → EReal :=
  layer (R1 x0 x1 x2 x3 x4 x5 x6 x7 x8 x9) (meanOf (val_main_v16 (F := Ideal) (R1 x0 x1 x2 x3 x4 x5 x6 x7 x8 x9) x1 x2) (val_main_v5 (F := Ideal) x2)) (val_main_v66 (F := Ideal) x3)
    (val_main_v69 (F := Ideal) x4) (val_main_v73 (F := Ideal) x5) (val_main_v83 (F := Ideal) x6) (val_main_v94 (F := Ideal) x7) (val_main_v78 (F := Ideal) x8) (val_main_v85 (F := Ideal) x9)

/-- The third layer: of the second. -/
def R3 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : S100000x64.Idx → EReal :=
  layer (R2 x0 x1 x2 x3 x4 x5 x6 x7 x8 x9) (meanOf (val_main_v16 (F := Ideal) (R2 x0 x1 x2 x3 x4 x5 x6 x7 x8 x9) x1 x2) (val_main_v5 (F := Ideal) x2)) (val_main_v112 (F := Ideal) x3)
    (val_main_v115 (F := Ideal) x4) (val_main_v119 (F := Ideal) x5) (val_main_v129 (F := Ideal) x6) (val_main_v140 (F := Ideal) x7) (val_main_v124 (F := Ideal) x8) (val_main_v131 (F := Ideal) x9)

/-- The classifier head of the third layer. -/
def ROut (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal))
    (x10 : (⟨S64x2, .f32⟩ : BufTy).Contents (Elt Ideal)) (x11 : (⟨S2, .f32⟩ : BufTy).Contents (Elt Ideal)) : S100000x2.Idx → EReal :=
  head (R3 x0 x1 x2 x3 x4 x5 x6 x7 x8 x9) x10 x11

/-- The second layer's neighbour sum is the neighbour-sum function of the first layer's output. -/
theorem agg1 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) :
    val_main_v62 (F := Ideal) x0 x1 x2 x3 x4 x5 x6 x7 x8 x9 = val_main_v16 (F := Ideal) (val_main_v52 (F := Ideal) x0 x1 x2 x3 x4 x5 x6 x7 x8 x9) x1 x2 := rfl

/-- The third layer's neighbour sum is the neighbour-sum function of the second layer's output. -/
theorem agg2 (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) :
    val_main_v108 (F := Ideal) x0 x1 x2 x3 x4 x5 x6 x7 x8 x9 = val_main_v16 (F := Ideal) (val_main_v98 (F := Ideal) x0 x1 x2 x3 x4 x5 x6 x7 x8 x9) x1 x2 := rfl

theorem R1_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : val_main_v52 (F := Ideal) x0 x1 x2 x3 x4 x5 x6 x7 x8 x9 = R1 x0 x1 x2 x3 x4 x5 x6 x7 x8 x9 := layer0_eq x0 x1 x2 x3 x4 x5 x6 x7 x8 x9

theorem R2_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : val_main_v98 (F := Ideal) x0 x1 x2 x3 x4 x5 x6 x7 x8 x9 = R2 x0 x1 x2 x3 x4 x5 x6 x7 x8 x9 := by
  rw [layer1_eq, agg1, R1_eq]
  rfl

theorem R3_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal)) : val_main_v144 (F := Ideal) x0 x1 x2 x3 x4 x5 x6 x7 x8 x9 = R3 x0 x1 x2 x3 x4 x5 x6 x7 x8 x9 := by
  rw [layer2_eq, agg2, R2_eq]
  rfl

/-- The reference's result is the head of the third layer. -/
theorem ROut_eq (x0 : (⟨S100000x64, .f32⟩ : BufTy).Contents (Elt Ideal)) (x1 x2 : (⟨S1600000, .i32⟩ : BufTy).Contents (Elt Ideal))
    (x3 x4 : (⟨S3x64x64, .f32⟩ : BufTy).Contents (Elt Ideal)) (x5 x6 x7 x8 x9 : (⟨S3x64, .f32⟩ : BufTy).Contents (Elt Ideal))
    (x10 : (⟨S64x2, .f32⟩ : BufTy).Contents (Elt Ideal)) (x11 : (⟨S2, .f32⟩ : BufTy).Contents (Elt Ideal)) : val_main_v148 (F := Ideal) x0 x1 x2 x3 x4 x5 x6 x7 x8 x9 x10 x11 = ROut x0 x1 x2 x3 x4 x5 x6 x7 x8 x9 x10 x11 := by
  rw [head_eq, R3_eq]
  rfl

end Cert.ReferenceIdeal.RefValue

end
-- ==== Proof.lean ====
/-
  The certificate of a three-layer graph network: a kernel per layer against a plain reference.

  Each layer mean-aggregates the features of a node's in-neighbours, applies two 64×64 linear maps (to the node's own
  features and to the aggregate) and a bias, normalises with running statistics and clamps at zero; a 64×2 classifier
  follows the last layer. The kernel program computes the irregular parts (the in-degrees, the gather along the edges,
  the scatter-add at their targets) on the host exactly as the reference does and runs one kernel per layer over 20
  blocks of 5000 nodes; it multiplies the neighbour sum by the reciprocal of the clamped in-degree where the reference
  divides by the degree. On the extended reals the two agree because a clamped count of edges is a real number other
  than zero; every other step is the same operation on the same entries, a block of a matrix product being the same
  sums as the rows of the whole product. No finiteness of the inputs is used.

  The three frames are the generated ones (the reference's is its generated run with the result dropped); the ideal
  pass rewrote nothing, so there is nothing to preserve; the value claim joins the kernel program's run, read at its
  result through the three kernels, with the reference's run, read stage by stage.
-/
import proofs.«154846_j13511967113638_2_alg».proof.Defs
import proofs.«154846_j13511967113638_2_alg».proof.Proof.Gen.Kernel
import proofs.«154846_j13511967113638_2_alg».proof.Proof.Gen.Kernel.Skeleton
import proofs.«154846_j13511967113638_2_alg».proof.Proof.Gen.Kernel.Launch
import proofs.«154846_j13511967113638_2_alg».proof.Proof.Gen.Kernel.Points
import proofs.«154846_j13511967113638_2_alg».proof.Proof.Gen.Kernel.Frame
import proofs.«154846_j13511967113638_2_alg».proof.Proof.Gen.KernelIdeal
import proofs.«154846_j13511967113638_2_alg».proof.Proof.Gen.KernelIdeal.Skeleton
import proofs.«154846_j13511967113638_2_alg».proof.Proof.Gen.KernelIdeal.Launch
import proofs.«154846_j13511967113638_2_alg».proof.Proof.Gen.KernelIdeal.Points
import proofs.«154846_j13511967113638_2_alg».proof.Proof.Gen.KernelIdeal.Frame
import proofs.«154846_j13511967113638_2_alg».proof.Proof.Gen.ReferenceIdeal
import proofs.«154846_j13511967113638_2_alg».proof.Proof.Gen.ReferenceIdeal.Run
import proofs.«154846_j13511967113638_2_alg».proof.Proof.Gen.ReferenceIdeal.Read
import proofs.«154846_j13511967113638_2_alg».proof.Proof.Gen.Pre_finite_inputs
import proofs.«154846_j13511967113638_2_alg».proof.Proof.KRun
import proofs.«154846_j13511967113638_2_alg».proof.Proof.KHost2
import proofs.«154846_j13511967113638_2_alg».proof.Proof.RefChain
import Idealize.ShloMosaic.Adequacy
import Idealize.ShloMosaic.Init

noncomputable section

namespace Cert.Proof

open Idealize.ShloMosaic Idealize.ShloMosaic.TcCoe Idealize.SL.Sem

/-! ## The kernel program's value is the reference's chain of layers -/

section Chain

open Cert.KernelIdeal Cert.KernelIdeal.KV Cert.ReferenceIdeal.RefValue

variable (m : (ℓ : Loc Cert.KernelIdeal.nD Cert.KernelIdeal.τ Cert.KernelIdeal.sig) → Buf (Elt Ideal) ℓ) (c : Dev Cert.KernelIdeal.nD)

theorem K1_eq : K1 m c = R1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := rfl

theorem K2_eq : K2 m c = R2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold K2 R2
  rw [K1_eq]

theorem K3_eq : K3 m c = R3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  unfold K3 R3
  rw [K2_eq]

theorem KOut_eq : KOut m c = ROut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold KOut ROut
  rw [K3_eq]

end Chain

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the classifier head of the third layer of the input features in their result. -/
theorem algebraic : Cert.algebraic_KernelIdeal_ReferenceIdeal := by
  intro m ρ m' ρ' _ hagree
  refine ⟨fun c => Cert.KernelIdeal.KV.KOut m c, ?_, ?_⟩
  · exact (θ_run Cert.KernelIdeal.defs _ _).mono
      (fun _ h c => ⟨(h c).1.trans (Cert.KernelIdeal.KV.region2_value m ρ c), (h c).2⟩)
      (Cert.KernelIdeal.KV.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v148_eq, e0, e1, e2, e3, e4, e5, e6, e7, e8, e9, e10, e11,
      Cert.ReferenceIdeal.RefValue.ROut_eq]
    exact (KOut_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
